-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x12 : Shape := ⟨2, ![262144, 12]⟩
abbrev S262144x1 : Shape := ⟨2, ![262144, 1]⟩
abbrev S64x13 : Shape := ⟨2, ![64, 13]⟩
abbrev S64 : Shape := ⟨1, ![64]⟩
abbrev S64x128 : Shape := ⟨2, ![64, 128]⟩
abbrev S32x64 : Shape := ⟨2, ![32, 64]⟩
abbrev S32 : Shape := ⟨1, ![32]⟩
abbrev S400x65 : Shape := ⟨2, ![400, 65]⟩
abbrev S400 : Shape := ⟨1, ![400]⟩
abbrev S300x400 : Shape := ⟨2, ![300, 400]⟩
abbrev S300 : Shape := ⟨1, ![300]⟩
abbrev S32x300 : Shape := ⟨2, ![32, 300]⟩
abbrev S_ : Shape := ⟨0, ![]⟩

class Facts : Prop where
  bcast_S_S262144x12 : S_.BroadcastsInDim S262144x12 (![] : Fin 0 → Fin S262144x12.rank)
  reducesTo_S262144x12_S_d0_1 : S262144x12.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S64x13 : S_.BroadcastsInDim S64x13 (![] : Fin 0 → Fin S64x13.rank)
  reducesTo_S64x13_S_d0_1 : S64x13.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S400x65 : S_.BroadcastsInDim S400x65 (![] : Fin 0 → Fin S400x65.rank)
  reducesTo_S400x65_S_d0_1 : S400x65.ReducesTo [0, 1] S_
  bcast_S_S400 : S_.BroadcastsInDim S400 (![] : Fin 0 → Fin S400.rank)
  reducesTo_S400_S_d0 : S400.ReducesTo [0] S_
  bcast_S_S300x400 : S_.BroadcastsInDim S300x400 (![] : Fin 0 → Fin S300x400.rank)
  reducesTo_S300x400_S_d0_1 : S300x400.ReducesTo [0, 1] S_
  bcast_S_S300 : S_.BroadcastsInDim S300 (![] : Fin 0 → Fin S300.rank)
  reducesTo_S300_S_d0 : S300.ReducesTo [0] S_
  bcast_S_S32x300 : S_.BroadcastsInDim S32x300 (![] : Fin 0 → Fin S32x300.rank)
  reducesTo_S32x300_S_d0_1 : S32x300.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S300 .f32) (main_arg12 : FVec F S32x300 .f32) (main_arg13 : FVec F S32 .f32) (main_v48 : IVec S_ 1) (main_v49 : FVec F S300x400 .f32) (main_v50 : FVec F S300x400 .f32) : IVec S_ 1 :=
  let main_v51 : IVec S300x400 1 := cmpf .olt main_v49 main_v50
  let main_c_19 : IVec S_ 1 := constantI S_ 1 1#1
  let main_v52 : IVec S_ 1 := (fun x v => Host.reduce IntOp.andi x v reducesTo_S300x400_S_d0_1 h_S_) main_v51 main_c_19
  let main_v53 : IVec S_ 1 := andi main_v48 main_v52
  let main_v54 : FVec F S300 .f32 := Host.absf main_arg11
  let main_cst_20 : FVec F S_ .f32 := constant S_ .f32 0x7F800000#32
  let main_v55 : FVec F S300 .f32 := broadcastInDim S300 ![] bcast_S_S300 main_cst_20
  let main_v56 : IVec S300 1 := cmpf .olt main_v54 main_v55
  let main_c_21 : IVec S_ 1 := constantI S_ 1 1#1
  let main_v57 : IVec S_ 1 := (fun x v => Host.reduce IntOp.andi x v reducesTo_S300_S_d0 h_S_) main_v56 main_c_21
  let main_v58 : IVec S_ 1 := andi main_v53 main_v57
  let main_v59 : FVec F S32x300 .f32 := Host.absf main_arg12
  let main_cst_22 : FVec F S_ .f32 := constant S_ .f32 0x7F800000#32
  let main_v60 : FVec F S32x300 .f32 := broadcastInDim S32x300 ![] bcast_S_S32x300 main_cst_22
  let main_v61 : IVec S32x300 1 := cmpf .olt main_v59 main_v60
  let main_c_23 : IVec S_ 1 := constantI S_ 1 1#1
  let main_v62 : IVec S_ 1 := (fun x v => Host.reduce IntOp.andi x v reducesTo_S32x300_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg7 : FVec F S32 .f32) (main_arg8 : FVec F S400x65 .f32) (main_arg9 : FVec F S400 .f32) (main_arg10 : FVec F S300x400 .f32) (main_arg11 : FVec F S300 .f32) (main_arg12 : FVec F S32x300 .f32) (main_arg13 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S400x65 .f32 := Host.absf main_arg8
  let main_cst_14 : FVec F S_ .f32 := constant S_ .f32 0x7F800000#32
  let main_v40 : FVec F S400x65 .f32 := broadcastInDim S400x65 ![] bcast_S_S400x65 main_cst_14
  let main_v41 : IVec S400x65 1 := cmpf .olt main_v39 main_v40
  let main_c_15 : IVec S_ 1 := constantI S_ 1 1#1
  let main_v42 : IVec S_ 1 := (fun x v => Host.reduce IntOp.andi x v reducesTo_S400x65_S_d0_1 h_S_) main_v41 main_c_15
  let main_v43 : IVec S_ 1 := andi main_v38 main_v42
  let main_v44 : FVec F S400 .f32 := Host.absf main_arg9
  let main_cst_16 : FVec F S_ .f32 := constant S_ .f32 0x7F800000#32
  let main_v45 : FVec F S400 .f32 := broadcastInDim S400 ![] bcast_S_S400 main_cst_16
  let main_v46 : IVec S400 1 := cmpf .olt main_v44 main_v45
  let main_c_17 : IVec S_ 1 := constantI S_ 1 1#1
  let main_v47 : IVec S_ 1 := (fun x v => Host.reduce IntOp.andi x v reducesTo_S400_S_d0 h_S_) main_v46 main_c_17
  let main_v48 : IVec S_ 1 := andi main_v43 main_v47
  let main_v49 : FVec F S300x400 .f32 := Host.absf main_arg10
  let main_cst_18 : FVec F S_ .f32 := constant S_ .f32 0x7F800000#32
  let main_v50 : FVec F S300x400 .f32 := broadcastInDim S300x400 ![] bcast_S_S300x400 main_cst_18
  fn_part3 (F := F) main_arg11 main_arg12 main_arg13 main_v48 main_v49 main_v50

def fn_part1 {F : FTy → Type} [FloatOps F] (main_arg4 : FVec F S64x128 .f32) (main_arg5 : FVec F S64 .f32) (main_arg6 : FVec F S32x64 .f32) (main_arg7 : FVec F S32 .f32) (main_arg8 : FVec F S400x65 .f32) (main_arg9 : FVec F S400 .f32) (main_arg10 : FVec F S300x400 .f32) (main_arg11 : FVec F S300 .f32) (main_arg12 : FVec F S32x300 .f32) (main_arg13 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S262144x12 .f32) (main_arg1 : FVec F S262144x1 .f32) (main_arg2 : FVec F S64x13 .f32) (main_arg3 : FVec F S64 .f32) (main_arg4 : FVec F S64x128 .f32) (main_arg5 : FVec F S64 .f32) (main_arg6 : FVec F S32x64 .f32) (main_arg7 : FVec F S32 .f32) (main_arg8 : FVec F S400x65 .f32) (main_arg9 : FVec F S400 .f32) (main_arg10 : FVec F S300x400 .f32) (main_arg11 : FVec F S300 .f32) (main_arg12 : FVec F S32x300 .f32) (main_arg13 : FVec F S32 .f32) : IVec S_ 1 :=
  let main_v0 : FVec F S262144x12 .f32 := Host.absf main_arg0
  let main_cst : FVec F S_ .f32 := constant S_ .f32 0x7F800000#32
  let main_v1 : FVec F S262144x12 .f32 := broadcastInDim S262144x12 ![] bcast_S_S262144x12 main_cst
  let main_v2 : IVec S262144x12 1 := cmpf .olt main_v0 main_v1
  let main_c : IVec S_ 1 := constantI S_ 1 1#1
  let main_v3 : IVec S_ 1 := (fun x v => Host.reduce IntOp.andi x v reducesTo_S262144x12_S_d0_1 h_S_) main_v2 main_c
  let main_v4 : FVec F S262144x1 .f32 := Host.absf main_arg1
  let main_cst_0 : FVec F S_ .f32 := constant S_ .f32 0x7F800000#32
  let main_v5 : FVec F S262144x1 .f32 := broadcastInDim S262144x1 ![] bcast_S_S262144x1 main_cst_0
  let main_v6 : IVec S262144x1 1 := cmpf .olt main_v4 main_v5
  let main_c_1 : IVec S_ 1 := constantI S_ 1 1#1
  let main_v7 : IVec S_ 1 := (fun x v => Host.reduce IntOp.andi x v reducesTo_S262144x1_S_d0_1 h_S_) main_v6 main_c_1
  let main_v8 : IVec S_ 1 := andi main_v3 main_v7
  let main_v9 : FVec F S64x13 .f32 := Host.absf main_arg2
  let main_cst_2 : FVec F S_ .f32 := constant S_ .f32 0x7F800000#32
  let main_v10 : FVec F S64x13 .f32 := broadcastInDim S64x13 ![] bcast_S_S64x13 main_cst_2
  let main_v11 : IVec S64x13 1 := cmpf .olt main_v9 main_v10
  let main_c_3 : IVec S_ 1 := constantI S_ 1 1#1
  let main_v12 : IVec S_ 1 := (fun x v => Host.reduce IntOp.andi x v reducesTo_S64x13_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S262144x12 : Shape := ⟨2, ![262144, 12]⟩
abbrev S262144x1 : Shape := ⟨2, ![262144, 1]⟩
abbrev S64x13 : Shape := ⟨2, ![64, 13]⟩
abbrev S64 : Shape := ⟨1, ![64]⟩
abbrev S64x128 : Shape := ⟨2, ![64, 128]⟩
abbrev S32x64 : Shape := ⟨2, ![32, 64]⟩
abbrev S32 : Shape := ⟨1, ![32]⟩
abbrev S400x65 : Shape := ⟨2, ![400, 65]⟩
abbrev S400 : Shape := ⟨1, ![400]⟩
abbrev S300x400 : Shape := ⟨2, ![300, 400]⟩
abbrev S300 : Shape := ⟨1, ![300]⟩
abbrev S32x300 : Shape := ⟨2, ![32, 300]⟩
abbrev S64x12 : Shape := ⟨2, ![64, 12]⟩
abbrev S12x64 : Shape := ⟨2, ![12, 64]⟩
abbrev S64x1 : Shape := ⟨2, ![64, 1]⟩
abbrev S1x64 : Shape := ⟨2, ![1, 64]⟩
abbrev S64x64 : Shape := ⟨2, ![64, 64]⟩
abbrev S64x32 : Shape := ⟨2, ![64, 32]⟩
abbrev S400x32 : Shape := ⟨2, ![400, 32]⟩
abbrev S32x400 : Shape := ⟨2, ![32, 400]⟩
abbrev S400x1 : Shape := ⟨2, ![400, 1]⟩
abbrev S1x400 : Shape := ⟨2, ![1, 400]⟩
abbrev S400x300 : Shape := ⟨2, ![400, 300]⟩
abbrev S300x32 : Shape := ⟨2, ![300, 32]⟩
abbrev S1x32 : Shape := ⟨2, ![1, 32]⟩
abbrev S1x300 : Shape := ⟨2, ![1, 300]⟩
abbrev S262144x32 : Shape := ⟨2, ![262144, 32]⟩
abbrev S4096x12 : Shape := ⟨2, ![4096, 12]⟩
abbrev S4096x1 : Shape := ⟨2, ![4096, 1]⟩
abbrev S4096x32 : Shape := ⟨2, ![4096, 32]⟩
abbrev S4096x64 : Shape := ⟨2, ![4096, 64]⟩
abbrev S4096 : Shape := ⟨1, ![4096]⟩
abbrev S4096x400 : Shape := ⟨2, ![4096, 400]⟩
abbrev S4096x300 : Shape := ⟨2, ![4096, 300]⟩

abbrev nBuf : Space → Nat
  | .hbm => 42
  | .vmem => 20
  | .smem => 0
  | _ => 0

abbrev bufTy : (tb : Table) → Fin (tcTables nBuf tb) → BufTy
  | .hbm, ⟨0, _⟩ => ⟨S262144x12, .f32⟩
  | .hbm, ⟨1, _⟩ => ⟨S262144x1, .f32⟩
  | .hbm, ⟨2, _⟩ => ⟨S64x13, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S400x65, .f32⟩
  | .hbm, ⟨9, _⟩ => ⟨S400, .f32⟩
  | .hbm, ⟨10, _⟩ => ⟨S300x400, .f32⟩
  | .hbm, ⟨11, _⟩ => ⟨S300, .f32⟩
  | .hbm, ⟨12, _⟩ => ⟨S32x300, .f32⟩
  | .hbm, ⟨13, _⟩ => ⟨S32, .f32⟩
  | .hbm, ⟨14, _⟩ => ⟨S64x12, .f32⟩
  | .hbm, ⟨15, _⟩ => ⟨S12x64, .f32⟩
  | .hbm, ⟨16, _⟩ => ⟨S12x64, .bf16⟩
  | .hbm, ⟨17, _⟩ => ⟨S64x1, .f32⟩
  | .hbm, ⟨18, _⟩ => ⟨S64, .f32⟩
  | .hbm, ⟨19, _⟩ => ⟨S1x64, .f32⟩
  | .hbm, ⟨20, _⟩ => ⟨S64x64, .f32⟩
  | .hbm, ⟨21, _⟩ => ⟨S64x64, .f32⟩
  | .hbm, ⟨22, _⟩ => ⟨S64x64, .bf16⟩
  | .hbm, ⟨23, _⟩ => ⟨S64x32, .f32⟩
  | .hbm, ⟨24, _⟩ => ⟨S64x32, .bf16⟩
  | .hbm, ⟨25, _⟩ => ⟨S400x32, .f32⟩
  | .hbm, ⟨26, _⟩ => ⟨S32x400, .f32⟩
  | .hbm, ⟨27, _⟩ => ⟨S32x400, .bf16⟩
  | .hbm, ⟨28, _⟩ => ⟨S400x1, .f32⟩
  | .hbm, ⟨29, _⟩ => ⟨S400, .f32⟩
  | .hbm, ⟨30, _⟩ => ⟨S1x400, .f32⟩
  | .hbm, ⟨31, _⟩ => ⟨S400x300, .f32⟩
  | .hbm, ⟨32, _⟩ => ⟨S400x300, .bf16⟩
  | .hbm, ⟨33, _⟩ => ⟨S300x32, .f32⟩
  | .hbm, ⟨34, _⟩ => ⟨S300x32, .bf16⟩
  | .hbm, ⟨35, _⟩ => ⟨S1x64, .f32⟩
  | .hbm, ⟨36, _⟩ => ⟨S1x64, .f32⟩
  | .hbm, ⟨37, _⟩ => ⟨S1x32, .f32⟩
  | .hbm, ⟨38, _⟩ => ⟨S1x400, .f32⟩
  | .hbm, ⟨39, _⟩ => ⟨S1x300, .f32⟩
  | .hbm, ⟨40, _⟩ => ⟨S1x32, .f32⟩
  | .hbm, ⟨41, _⟩ => ⟨S262144x32, .f32⟩
  | .local _ .vmem, ⟨0, _⟩ => ⟨S4096x12, .f32⟩
  | .local _ .vmem, ⟨1, _⟩ => ⟨S4096x12, .f32⟩
  | .local _ .vmem, ⟨2, _⟩ => ⟨S4096x1, .f32⟩
  | .local _ .vmem, ⟨3, _⟩ => ⟨S4096x1, .f32⟩
  | .local _ .vmem, ⟨4, _⟩ => ⟨S12x64, .bf16⟩
  | .local _ .vmem, ⟨5, _⟩ => ⟨S1x64, .f32⟩
  | .local _ .vmem, ⟨6, _⟩ => ⟨S1x64, .f32⟩
  | .local _ .vmem, ⟨7, _⟩ => ⟨S64x64, .bf16⟩
  | .local _ .vmem, ⟨8, _⟩ => ⟨S1x64, .f32⟩
  | .local _ .vmem, ⟨9, _⟩ => ⟨S64x32, .bf16⟩
  | .local _ .vmem, ⟨10, _⟩ => ⟨S1x32, .f32⟩
  | .local _ .vmem, ⟨11, _⟩ => ⟨S32x400, .bf16⟩
  | .local _ .vmem, ⟨12, _⟩ => ⟨S1x400, .f32⟩
  | .local _ .vmem, ⟨13, _⟩ => ⟨S1x400, .f32⟩
  | .local _ .vmem, ⟨14, _⟩ => ⟨S400x300, .bf16⟩
  | .local _ .vmem, ⟨15, _⟩ => ⟨S1x300, .f32⟩
  | .local _ .vmem, ⟨16, _⟩ => ⟨S300x32, .bf16⟩
  | .local _ .vmem, ⟨17, _⟩ => ⟨S1x32, .f32⟩
  | .local _ .vmem, ⟨18, _⟩ => ⟨S4096x32, .f32⟩
  | .local _ .vmem, ⟨19, _⟩ => ⟨S4096x32, .f32⟩
  | _, _ => ⟨S262144x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x400 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x400 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S400x300 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x300 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S300x32 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4096x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S64x13_S64x12_0_0 : S64x13.Slices ![0, 0] S64x12
  transposes_S64x12_S12x64_1_0 : S64x12.Transposes [1, 0] S12x64
  bitsLt_bf16_f32 : FTy.bits .bf16 < FTy.bits .f32
  slices_S64x13_S64x1_0_12 : S64x13.Slices ![0, 12] S64x1
  shapeCasts_S64x1_S64 : S64x1.ShapeCasts S64
  shapeCasts_S64_S1x64 : S64.ShapeCasts S1x64
  slices_S64x128_S64x64_0_0 : S64x128.Slices ![0, 0] S64x64
  transposes_S64x64_S64x64_1_0 : S64x64.Transposes [1, 0] S64x64
  transposes_S32x64_S64x32_1_0 : S32x64.Transposes [1, 0] S64x32
  slices_S400x65_S400x32_0_0 : S400x65.Slices ![0, 0] S400x32
  transposes_S400x32_S32x400_1_0 : S400x32.Transposes [1, 0] S32x400
  slices_S400x65_S400x1_0_32 : S400x65.Slices ![0, 32] S400x1
  shapeCasts_S400x1_S400 : S400x1.ShapeCasts S400
  shapeCasts_S400_S1x400 : S400.ShapeCasts S1x400
  transposes_S300x400_S400x300_1_0 : S300x400.Transposes [1, 0] S400x300
  transposes_S32x300_S300x32_1_0 : S32x300.Transposes [1, 0] S300x32
  shapeCasts_S32_S1x32 : S32.ShapeCasts S1x32
  shapeCasts_S300_S1x300 : S300.ShapeCasts S1x300
  inb_S4096x12_S4096x12_0_0 : ∀ a, (![0, 0] : Fin 2 → Nat) a + S4096x12.size a ≤ S4096x12.size a
  h_S4096x12 : 0 < S4096x12.numel
  inb_S4096x1_S4096x1_0_0 : ∀ a, (![0, 0] : Fin 2 → Nat) a + S4096x1.size a ≤ S4096x1.size a
  h_S4096x1 : 0 < S4096x1.numel
  inb_S12x64_S12x64_0_0 : ∀ a, (![0, 0] : Fin 2 → Nat) a + S12x64.size a ≤ S12x64.size a
  h_S12x64 : 0 < S12x64.numel
  shapeCasts_S12x64_S12x64 : S12x64.ShapeCasts S12x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4096x1_S4096x64 : S4096x1.Broadcasts S4096x64
  broadcasts_S1x64_S4096x64 : S1x64.Broadcasts S4096x64
  reduces_S4096x64_S4096 : S4096x64.Reduces [1] S4096
  shapeCasts_S4096_S4096x1 : S4096.ShapeCasts S4096x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  reduces_S4096x32_S4096 : S4096x32.Reduces [1] S4096
  broadcasts_S4096x1_S4096x32 : S4096x1.Broadcasts S4096x32
  inb_S32x400_S32x400_0_0 : ∀ a, (![0, 0] : Fin 2 → Nat) a + S32x400.size a ≤ S32x400.size a
  h_S32x400 : 0 < S32x400.numel
  shapeCasts_S32x400_S32x400 : S32x400.ShapeCasts S32x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S4096x1_S4096x400 : S4096x1.Broadcasts S4096x400
  broadcasts_S1x400_S4096x400 : S1x400.Broadcasts S4096x400
  inb_S400x300_S400x300_0_0 : ∀ a, (![0, 0] : Fin 2 → Nat) a + S400x300.size a ≤ S400x300.size a
  h_S400x300 : 0 < S400x300.numel
  shapeCasts_S400x300_S400x300 : S400x300.ShapeCasts S400x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S4096x300 : S1x300.Broadcasts S4096x300
  inb_S300x32_S300x32_0_0 : ∀ a, (![0, 0] : Fin 2 → Nat) a + S300x32.size a ≤ S300x32.size a
  h_S300x32 : 0 < S300x32.numel
  shapeCasts_S300x32_S300x32 : S300x32.ShapeCasts S300x32
  inb_S4096x32_S4096x32_0_0 : ∀ a, (![0, 0] : Fin 2 → Nat) a + S4096x32.size a ≤ S4096x32.size a
  h_S4096x32 : 0 < S4096x32.numel
  dot_S4096x12_S12x64_S4096x64_1_0_0_1_n_n_wf : DotDims.WF S4096x12 S12x64 S4096x64 [1] [0] [0] [1] [] []
  dot_S4096x64_S64x64_S4096x64_1_0_0_1_n_n_wf : DotDims.WF S4096x64 S64x64 S4096x64 [1] [0] [0] [1] [] []
  dot_S4096x64_S64x32_S4096x32_1_0_0_1_n_n_wf : DotDims.WF S4096x64 S64x32 S4096x32 [1] [0] [0] [1] [] []
  dot_S4096x32_S32x400_S4096x400_1_0_0_1_n_n_wf : DotDims.WF S4096x32 S32x400 S4096x400 [1] [0] [0] [1] [] []
  dot_S4096x400_S400x300_S4096x300_1_0_0_1_n_n_wf : DotDims.WF S4096x400 S400x300 S4096x300 [1] [0] [0] [1] [] []
  dot_S4096x300_S300x32_S4096x32_1_0_0_1_n_n_wf : DotDims.WF S4096x300 S300x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x12.size a ≤ S262144x12.size a
  hwx0_0 : ∀ i : grid0.Coords, EltTy.bits .f32 = 32 ∨ (Rect.block (s := S262144x12) S4096x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .f32 = 32 ∨ (Rect.block (s := S262144x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x64.size a ≤ S12x64.size a
  hwx0_2 : ∀ i : grid0.Coords, EltTy.bits .bf16 = 32 ∨ (Rect.block (s := S12x64) S12x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x400.size a ≤ S32x400.size a
  hwx0_9 : ∀ i : grid0.Coords, EltTy.bits .bf16 = 32 ∨ (Rect.block (s := S32x400) S32x400.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x400.size a ≤ S1x400.size a
  hwx0_10 : ∀ i : grid0.Coords, EltTy.bits .f32 = 32 ∨ (Rect.block (s := S1x400) S1x400.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x400.size a ≤ S1x400.size a
  hwx0_11 : ∀ i : grid0.Coords, EltTy.bits .f32 = 32 ∨ (Rect.block (s := S1x400) S1x400.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S400x300.size a ≤ S400x300.size a
  hwx0_12 : ∀ i : grid0.Coords, EltTy.bits .bf16 = 32 ∨ (Rect.block (s := S400x300) S400x300.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x300.size a ≤ S1x300.size a
  hwx0_13 : ∀ i : grid0.Coords, EltTy.bits .f32 = 32 ∨ (Rect.block (s := S1x300) S1x300.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S300x32.size a ≤ S300x32.size a
  hwx0_14 : ∀ i : grid0.Coords, EltTy.bits .bf16 = 32 ∨ (Rect.block (s := S300x32) S300x32.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x32.size a ≤ S1x32.size a
  hwx0_15 : ∀ i : grid0.Coords, EltTy.bits .f32 = 32 ∨ (Rect.block (s := S1x32) S1x32.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4096x32.size a ≤ S262144x32.size a
  hwx0_16 : ∀ i : grid0.Coords, EltTy.bits .f32 = 32 ∨ (Rect.block (s := S262144x32) S4096x32.size (cc0_transform_16 i) (hinb0_16 i)).WholeWords (EltTy.packing .f32)

variable [Facts₀]

def dot_S4096x12_S12x64_S4096x64_1_0_0_1_n_n : DotDims S4096x12 S12x64 S4096x64 where
  lhsContracting := [1]
  rhsContracting := [0]
  lhsNonContracting := [0]
  rhsNonContracting := [1]
  lhsBatch := []
  rhsBatch := []
  wf := dot_S4096x12_S12x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x400_S4096x400_1_0_0_1_n_n : DotDims S4096x32 S32x400 S4096x400 where
  lhsContracting := [1]
  rhsContracting := [0]
  lhsNonContracting := [0]
  rhsNonContracting := [1]
  lhsBatch := []
  rhsBatch := []
  wf := dot_S4096x32_S32x400_S4096x400_1_0_0_1_n_n_wf
def dot_S4096x400_S400x300_S4096x300_1_0_0_1_n_n : DotDims S4096x400 S400x300 S4096x300 where
  lhsContracting := [1]
  rhsContracting := [0]
  lhsNonContracting := [0]
  rhsNonContracting := [1]
  lhsBatch := []
  rhsBatch := []
  wf := dot_S4096x400_S400x300_S4096x300_1_0_0_1_n_n_wf
def dot_S4096x300_S300x32_S4096x32_1_0_0_1_n_n : DotDims S4096x300 S300x32 S4096x32 where
  lhsContracting := [1]
  rhsContracting := [0]
  lhsNonContracting := [0]
  rhsNonContracting := [1]
  lhsBatch := []
  rhsBatch := []
  wf := dot_S4096x300_S300x32_S4096x32_1_0_0_1_n_n_wf

abbrev win0_0 : Pipeline.Window sig grid0 :=
  Pipeline.Window.ofSpec (Memref.whole main_arg0) S4096x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S12x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S32x400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S1x400.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S400x300.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S1x300.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v20) S300x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v26) S1x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v27) S4096x32.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S262144x12 : Shape := ⟨2, ![262144, 12]⟩
abbrev S262144x1 : Shape := ⟨2, ![262144, 1]⟩
abbrev S64x13 : Shape := ⟨2, ![64, 13]⟩
abbrev S64 : Shape := ⟨1, ![64]⟩
abbrev S64x128 : Shape := ⟨2, ![64, 128]⟩
abbrev S32x64 : Shape := ⟨2, ![32, 64]⟩
abbrev S32 : Shape := ⟨1, ![32]⟩
abbrev S400x65 : Shape := ⟨2, ![400, 65]⟩
abbrev S400 : Shape := ⟨1, ![400]⟩
abbrev S300x400 : Shape := ⟨2, ![300, 400]⟩
abbrev S300 : Shape := ⟨1, ![300]⟩
abbrev S32x300 : Shape := ⟨2, ![32, 300]⟩
abbrev S_ : Shape := ⟨0, ![]⟩
abbrev S262144x64 : Shape := ⟨2, ![262144, 64]⟩
abbrev S262144x13 : Shape := ⟨2, ![262144, 13]⟩
abbrev S13x64 : Shape := ⟨2, ![13, 64]⟩
abbrev S1x64 : Shape := ⟨2, ![1, 64]⟩
abbrev S262144 : Shape := ⟨1, ![262144]⟩
abbrev S262144x128 : Shape := ⟨2, ![262144, 128]⟩
abbrev S128x64 : Shape := ⟨2, ![128, 64]⟩
abbrev S64x32 : Shape := ⟨2, ![64, 32]⟩
abbrev S262144x32 : Shape := ⟨2, ![262144, 32]⟩
abbrev S1x32 : Shape := ⟨2, ![1, 32]⟩
abbrev S262144x65 : Shape := ⟨2, ![262144, 65]⟩
abbrev S65x400 : Shape := ⟨2, ![65, 400]⟩
abbrev S262144x400 : Shape := ⟨2, ![262144, 400]⟩
abbrev S1x400 : Shape := ⟨2, ![1, 400]⟩
abbrev S400x300 : Shape := ⟨2, ![400, 300]⟩
abbrev S262144x300 : Shape := ⟨2, ![262144, 300]⟩
abbrev S1x300 : Shape := ⟨2, ![1, 300]⟩
abbrev S300x32 : Shape := ⟨2, ![300, 32]⟩

abbrev nBuf : Space → Nat
  | .hbm => 79
  | .vmem => 0
  | .smem => 0
  | _ => 0

abbrev bufTy : (tb : Table) → Fin (tcTables nBuf tb) → BufTy
  | .hbm, ⟨0, _⟩ => ⟨S262144x12, .f32⟩
  | .hbm, ⟨1, _⟩ => ⟨S262144x1, .f32⟩
  | .hbm, ⟨2, _⟩ => ⟨S64x13, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S400x65, .f32⟩
  | .hbm, ⟨9, _⟩ => ⟨S400, .f32⟩
  | .hbm, ⟨10, _⟩ => ⟨S300x400, .f32⟩
  | .hbm, ⟨11, _⟩ => ⟨S300, .f32⟩
  | .hbm, ⟨12, _⟩ => ⟨S32x300, .f32⟩
  | .hbm, ⟨13, _⟩ => ⟨S32, .f32⟩
  | .hbm, ⟨14, _⟩ => ⟨S_, .f32⟩
  | .hbm, ⟨15, _⟩ => ⟨S262144x64, .f32⟩
  | .hbm, ⟨16, _⟩ => ⟨S262144x13, .f32⟩
  | .hbm, ⟨17, _⟩ => ⟨S13x64, .f32⟩
  | .hbm, ⟨18, _⟩ => ⟨S262144x64, .f32⟩
  | .hbm, ⟨19, _⟩ => ⟨S1x64, .f32⟩
  | .hbm, ⟨20, _⟩ => ⟨S262144x64, .f32⟩
  | .hbm, ⟨21, _⟩ => ⟨S262144x64, .f32⟩
  | .hbm, ⟨22, _⟩ => ⟨S262144x64, .f32⟩
  | .hbm, ⟨23, _⟩ => ⟨S_, .f32⟩
  | .hbm, ⟨24, _⟩ => ⟨S262144, .f32⟩
  | .hbm, ⟨25, _⟩ => ⟨S262144x1, .f32⟩
  | .hbm, ⟨26, _⟩ => ⟨S262144x1, .f32⟩
  | .hbm, ⟨27, _⟩ => ⟨S_, .f32⟩
  | .hbm, ⟨28, _⟩ => ⟨S262144x1, .f32⟩
  | .hbm, ⟨29, _⟩ => ⟨S262144x1, .f32⟩
  | .hbm, ⟨30, _⟩ => ⟨S262144x64, .f32⟩
  | .hbm, ⟨31, _⟩ => ⟨S262144x64, .f32⟩
  | .hbm, ⟨32, _⟩ => ⟨S262144x128, .f32⟩
  | .hbm, ⟨33, _⟩ => ⟨S262144x128, .f32⟩
  | .hbm, ⟨34, _⟩ => ⟨S128x64, .f32⟩
  | .hbm, ⟨35, _⟩ => ⟨S262144x64, .f32⟩
  | .hbm, ⟨36, _⟩ => ⟨S1x64, .f32⟩
  | .hbm, ⟨37, _⟩ => ⟨S262144x64, .f32⟩
  | .hbm, ⟨38, _⟩ => ⟨S262144x64, .f32⟩
  | .hbm, ⟨39, _⟩ => ⟨S262144x64, .f32⟩
  | .hbm, ⟨40, _⟩ => ⟨S64x32, .f32⟩
  | .hbm, ⟨41, _⟩ => ⟨S262144x32, .f32⟩
  | .hbm, ⟨42, _⟩ => ⟨S1x32, .f32⟩
  | .hbm, ⟨43, _⟩ => ⟨S262144x32, .f32⟩
  | .hbm, ⟨44, _⟩ => ⟨S262144x32, .f32⟩
  | .hbm, ⟨45, _⟩ => ⟨S262144x32, .f32⟩
  | .hbm, ⟨46, _⟩ => ⟨S_, .f32⟩
  | .hbm, ⟨47, _⟩ => ⟨S262144, .f32⟩
  | .hbm, ⟨48, _⟩ => ⟨S262144x1, .f32⟩
  | .hbm, ⟨49, _⟩ => ⟨S262144x1, .f32⟩
  | .hbm, ⟨50, _⟩ => ⟨S_, .f32⟩
  | .hbm, ⟨51, _⟩ => ⟨S262144x1, .f32⟩
  | .hbm, ⟨52, _⟩ => ⟨S262144x1, .f32⟩
  | .hbm, ⟨53, _⟩ => ⟨S262144x32, .f32⟩
  | .hbm, ⟨54, _⟩ => ⟨S262144x32, .f32⟩
  | .hbm, ⟨55, _⟩ => ⟨S_, .f32⟩
  | .hbm, ⟨56, _⟩ => ⟨S262144x32, .f32⟩
  | .hbm, ⟨57, _⟩ => ⟨S262144x65, .f32⟩
  | .hbm, ⟨58, _⟩ => ⟨S65x400, .f32⟩
  | .hbm, ⟨59, _⟩ => ⟨S262144x400, .f32⟩
  | .hbm, ⟨60, _⟩ => ⟨S1x400, .f32⟩
  | .hbm, ⟨61, _⟩ => ⟨S262144x400, .f32⟩
  | .hbm, ⟨62, _⟩ => ⟨S262144x400, .f32⟩
  | .hbm, ⟨63, _⟩ => ⟨S_, .f32⟩
  | .hbm, ⟨64, _⟩ => ⟨S262144x400, .f32⟩
  | .hbm, ⟨65, _⟩ => ⟨S262144x400, .f32⟩
  | .hbm, ⟨66, _⟩ => ⟨S400x300, .f32⟩
  | .hbm, ⟨67, _⟩ => ⟨S262144x300, .f32⟩
  | .hbm, ⟨68, _⟩ => ⟨S1x300, .f32⟩
  | .hbm, ⟨69, _⟩ => ⟨S262144x300, .f32⟩
  | .hbm, ⟨70, _⟩ => ⟨S262144x300, .f32⟩
  | .hbm, ⟨71, _⟩ => ⟨S_, .f32⟩
  | .hbm, ⟨72, _⟩ => ⟨S262144x300, .f32⟩
  | .hbm, ⟨73, _⟩ => ⟨S262144x300, .f32⟩
  | .hbm, ⟨74, _⟩ => ⟨S300x32, .f32⟩
  | .hbm, ⟨75, _⟩ => ⟨S262144x32, .f32⟩
  | .hbm, ⟨76, _⟩ => ⟨S1x32, .f32⟩
  | .hbm, ⟨77, _⟩ => ⟨S262144x32, .f32⟩
  | .hbm, ⟨78, _⟩ => ⟨S262144x32, .f32⟩
  | _, _ => ⟨S262144x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call0_cst : Ref sig .tc := ⟨.hbm, 63, rfl⟩
abbrev main_call0_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  bcast_S_S262144x64 : S_.BroadcastsInDim S262144x64 (![] : Fin 0 → Fin S262144x64.rank)
  concatenates_S262144x12_S262144x1_S262144x13_d1 : Shape.Concatenates [S262144x12, S262144x1] S262144x13 1
  transposes_S64x13_S13x64_1_0 : S64x13.Transposes [1, 0] S13x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  reducesTo_S262144x64_S262144_d1 : S262144x64.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x64_0_1 : S262144x1.BroadcastsInDim S262144x64 (![0, 1] : Fin 2 → Fin S262144x64.rank)
  concatenates_S262144x64_S262144x64_S262144x128_d1 : Shape.Concatenates [S262144x64, S262144x64] S262144x128 1
  transposes_S64x128_S128x64_1_0 : S64x128.Transposes [1, 0] S128x64
  transposes_S32x64_S64x32_1_0 : S32x64.Transposes [1, 0] S64x32
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  reducesTo_S262144x32_S262144_d1 : S262144x32.ReducesTo [1] S262144
  bcast_S262144x1_S262144x32_0_1 : S262144x1.BroadcastsInDim S262144x32 (![0, 1] : Fin 2 → Fin S262144x32.rank)
  bcast_S_S262144x32 : S_.BroadcastsInDim S262144x32 (![] : Fin 0 → Fin S262144x32.rank)
  concatenates_S262144x32_S262144x1_S262144x32_S262144x65_d1 : Shape.Concatenates [S262144x32, S262144x1, S262144x32] S262144x65 1
  transposes_S400x65_S65x400_1_0 : S400x65.Transposes [1, 0] S65x400
  bcast_S400_S1x400_1 : S400.BroadcastsInDim S1x400 (![1] : Fin 1 → Fin S1x400.rank)
  bcast_S1x400_S262144x400_0_1 : S1x400.BroadcastsInDim S262144x400 (![0, 1] : Fin 2 → Fin S262144x400.rank)
  bcast_S_S262144x400 : S_.BroadcastsInDim S262144x400 (![] : Fin 0 → Fin S262144x400.rank)
  transposes_S300x400_S400x300_1_0 : S300x400.Transposes [1, 0] S400x300
  bcast_S300_S1x300_1 : S300.BroadcastsInDim S1x300 (![1] : Fin 1 → Fin S1x300.rank)
  bcast_S1x300_S262144x300_0_1 : S1x300.BroadcastsInDim S262144x300 (![0, 1] : Fin 2 → Fin S262144x300.rank)
  bcast_S_S262144x300 : S_.BroadcastsInDim S262144x300 (![] : Fin 0 → Fin S262144x300.rank)
  transposes_S32x300_S300x32_1_0 : S32x300.Transposes [1, 0] S300x32
  dot_S262144x13_S13x64_S262144x64_1_0_0_1_n_n_wf : DotDims.WF S262144x13 S13x64 S262144x64 [1] [0] [0] [1] [] []
  dot_S262144x128_S128x64_S262144x64_1_0_0_1_n_n_wf : DotDims.WF S262144x128 S128x64 S262144x64 [1] [0] [0] [1] [] []
  dot_S262144x64_S64x32_S262144x32_1_0_0_1_n_n_wf : DotDims.WF S262144x64 S64x32 S262144x32 [1] [0] [0] [1] [] []
  dot_S262144x65_S65x400_S262144x400_1_0_0_1_n_n_wf : DotDims.WF S262144x65 S65x400 S262144x400 [1] [0] [0] [1] [] []
  dot_S262144x400_S400x300_S262144x300_1_0_0_1_n_n_wf : DotDims.WF S262144x400 S400x300 S262144x300 [1] [0] [0] [1] [] []
  dot_S262144x300_S300x32_S262144x32_1_0_0_1_n_n_wf : DotDims.WF S262144x300 S300x32 S262144x32 [1] [0] [0] [1] [] []

variable [Facts₀]

def dot_S262144x13_S13x64_S262144x64_1_0_0_1_n_n : DotDims S262144x13 S13x64 S262144x64 where
  lhsContracting := [1]
  rhsContracting := [0]
  lhsNonContracting := [0]
  rhsNonContracting := [1]
  lhsBatch := []
  rhsBatch := []
  wf := dot_S262144x13_S13x64_S262144x64_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x32_S262144x32_1_0_0_1_n_n : DotDims S262144x64 S64x32 S262144x32 where
  lhsContracting := [1]
  rhsContracting := [0]
  lhsNonContracting := [0]
  rhsNonContracting := [1]
  lhsBatch := []
  rhsBatch := []
  wf := dot_S262144x64_S64x32_S262144x32_1_0_0_1_n_n_wf
def dot_S262144x65_S65x400_S262144x400_1_0_0_1_n_n : DotDims S262144x65 S65x400 S262144x400 where
  lhsContracting := [1]
  rhsContracting := [0]
  lhsNonContracting := [0]
  rhsNonContracting := [1]
  lhsBatch := []
  rhsBatch := []
  wf := dot_S262144x65_S65x400_S262144x400_1_0_0_1_n_n_wf
def dot_S262144x400_S400x300_S262144x300_1_0_0_1_n_n : DotDims S262144x400 S400x300 S262144x300 where
  lhsContracting := [1]
  rhsContracting := [0]
  lhsNonContracting := [0]
  rhsNonContracting := [1]
  lhsBatch := []
  rhsBatch := []
  wf := dot_S262144x400_S400x300_S262144x300_1_0_0_1_n_n_wf
def dot_S262144x300_S300x32_S262144x32_1_0_0_1_n_n : DotDims S262144x300 S300x32 S262144x32 where
  lhsContracting := [1]
  rhsContracting := [0]
  lhsNonContracting := [0]
  rhsNonContracting := [1]
  lhsBatch := []
  rhsBatch := []
  wf := dot_S262144x300_S300x32_S262144x32_1_0_0_1_n_n_wf

class Facts : Prop extends Facts₀ where

variable [Facts]
-- ==== Proof.Net.lean ====
/-
  The network both programs compute, on ONE row of the batch.

  A row `x` of twelve state values and one action value `u` go through two small multilayer perceptrons:

    pre₁  = x·A₁ + u·a₁ + b₁            (64 values; the thirteen-column first layer with its last column split off)
    t₁    = tanh (pre₁ / max ‖pre₁‖ ε)   (the row scaled to unit Euclidean length, ε a floor under the length)
    t₂    = tanh (t₁·A₂ + b₂)            (64 values)
    s     = t₂·A₃                        (32 values; `up`)
    msg   = (s + b₃) / max ‖s + b₃‖ ε
    h₁    = max (msg·E₁ + u·e₁ + c₁) 0   (400 values)
    h₂    = max (h₁·E₂ + c₂) 0           (300 values; `mid`)
    out   = h₂·E₃ + c₃                   (32 values; `out`)

  Every weight matrix is written with the input coordinate first: `A k j` multiplies input `k` into output `j`.
  All sums and products are those of the extended reals; the two float literals (the floor ε and the zero of the
  rectifier) stay the words both programs print.
-/
import Idealize.ShloMosaic.PureOps.Ideal.Laws

noncomputable section

namespace Cert.Net

open Idealize.ShloMosaic

/-- A row times a matrix: output `j` is `∑ k, a k · w k j`. -/
def mm {K N : Nat} (a : Fin K → EReal) (w : Fin K → Fin N → EReal) : Fin N → EReal :=
  fun j => ∑ k : Fin K, a k * w k j

/-- A row divided by its Euclidean length, the length kept above the floor `fl`. -/
def unit {N : Nat} (fl : EReal) (v : Fin N → EReal) : Fin N → EReal :=
  fun j => Ideal.div (v j) (max (Ideal.sqrt (∑ k : Fin N, v k * v k)) fl)

/-- The floor under a length: the f32 word both programs print for 1e-12. -/
def floor : EReal := Ideal.ofBits .f32 0x2B8CBCCC#32

/-- The rectifier's zero: the f32 zero word. -/
def zero : EReal := Ideal.ofBits .f32 0x00000000#32

/-- The first perceptron up to its last product (before the last bias). -/
def up (x : Fin 12 → EReal) (u : EReal) (A₁ : Fin 12 → Fin 64 → EReal) (a₁ b₁ : Fin 64 → EReal)
    (A₂ : Fin 64 → Fin 64 → EReal) (b₂ : Fin 64 → EReal) (A₃ : Fin 64 → Fin 32 → EReal) : Fin 32 → EReal :=
  mm (fun j => Ideal.tanh (mm (fun k => Ideal.tanh (unit floor (fun i => mm x A₁ i + u * a₁ i + b₁ i) k)) A₂ j + b₂ j)) A₃

/-- From that product to the second perceptron's second hidden layer. -/
def mid (u : EReal) (s b₃ : Fin 32 → EReal) (E₁ : Fin 32 → Fin 400 → EReal) (e₁ c₁ : Fin 400 → EReal)
    (E₂ : Fin 400 → Fin 300 → EReal) (c₂ : Fin 300 → EReal) : Fin 300 → EReal :=
  fun j => max (mm (fun k => max (mm (unit floor (fun i => s i + b₃ i)) E₁ k + u * e₁ k + c₁ k) zero) E₂ j + c₂ j) zero

/-- The last layer. -/
def out (h : Fin 300 → EReal) (E₃ : Fin 300 → Fin 32 → EReal) (c₃ : Fin 32 → EReal) : Fin 32 → EReal :=
  fun j => mm h E₃ j + c₃ j

end Cert.Net

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«179178_j74294344286850_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowLayers.lean ====
/-
  The layers of a small perceptron applied to a block of `R` rows at once, read at one row `p`.

  Each lemma takes what the layer's input holds in row `p` (`ha : ∀ k, a (p, k) = row k`) and says what the
  layer's output holds at `(p, j)`, as a function of `row` alone — so a stack of layers is read by stacking the
  lemmas, one row at a time, whatever the number of rows in the block:

  * `product_apply` — the matrix unit's product with a `[K, N]` weight block into a zero accumulator:
    `∑ k, row k · w (k, j)`;
  * `bias_apply` — a `[1, N]` row repeated down the rows: its entry in column `j`;
  * `dense_apply`, `denseWith_apply` — product plus bias, and product plus an outer product `u (p) · wu (j)` of a
    one-column array with a one-row array plus bias (a layer whose last input coordinate is kept apart);
  * `unit_apply` — the rows divided by their Euclidean lengths (sum of squares along the row, kept as a column,
    square root, maximum with a floor, column repeated along the row, quotient):
    `row j / max (√(∑ k, row k²)) floor`.

  Only the definitions of the operations on the extended reals are used; nothing needs the entries to be finite.
-/
import Idealize.ShloMosaic.PureOps.Ideal.Laws
import Idealize.ShloMosaic.Lib.ValueIdx
import Idealize.ShloMosaic.Lib.ValueLayout
import Idealize.ShloMosaic.Lib.Pipeline.Value
import proofs.«179178_j74294344286850_2_alg».proof.Proof.LibRowsTimes
import proofs.«179178_j74294344286850_2_alg».proof.Proof.LibRowsCols
import proofs.«179178_j74294344286850_2_alg».proof.Proof.LibColumnLayout

noncomputable section

namespace Cert.RowLayers

open Idealize.ShloMosaic Idealize.ShloMosaic.ValueIdx Cert.Dense

variable {R K N : Nat}

/-- A `[1, N]` row (cast to its own shape) repeated down `R` rows reads, at `(p, j)`, the row at `j`. -/
theorem bias_apply {α : Type} (b : (⟨2, ![1, N]⟩ : Shape).Idx → α) (h₁ : (⟨2, ![1, N]⟩ : Shape).ShapeCasts ⟨2, ![1, N]⟩)
    (h₂ : (⟨2, ![1, N]⟩ : Shape).Broadcasts ⟨2, ![R, N]⟩) (p : Fin R) (j : Fin N) :
    broadcastTo ⟨2, ![R, N]⟩ (shapeCast ⟨2, ![1, N]⟩ b h₁) h₂ (ix2 p j) = b (ix2 (0 : Fin 1) j) := by
  rw [shapeCast_self]; exact broadcastTo_1b_ab_apply b h₂ p j

/-- The matrix unit's product of a block whose row `p` is `row` with a weight block, into the zero accumulator,
    at `(p, j)`: `∑ k, row k · w (k, j)`. -/
theorem product_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩) (p : Fin R) (j : Fin N)
    (row : Fin K → EReal) (ha : ∀ k, a (ix2 p k) = row k) :
    matmul d prec a (shapeCast ⟨2, ![K, N]⟩ w hc) (constant (F := Ideal) ⟨2, ![R, N]⟩ .f32 0x00000000#32) (ix2 p j)
      = ∑ k : Fin K, row k * w (ix2 k j) := by
  rw [shapeCast_self]
  refine (matmul_zero_apply hd prec a w (ix2 p j)).trans ?_
  exact Finset.sum_congr rfl fun k _ => congrArg (· * w (ix2 k j)) (ha k)

/-- Product plus bias at `(p, j)`. -/
theorem dense_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (matmul d prec a (shapeCast ⟨2, ![K, N]⟩ w hc) (constant (F := Ideal) ⟨2, ![R, N]⟩ .f32 0x00000000#32))
        (broadcastTo ⟨2, ![R, N]⟩ (shapeCast ⟨2, ![1, N]⟩ b hb₁) hb₂) (ix2 p j)
      = (∑ k : Fin K, row k * w (ix2 k j)) + b (ix2 (0 : Fin 1) j) :=
  (addf_apply _ _ _).trans (congrArg₂ (· + ·) (product_apply d hd prec a w hc p j row ha) (bias_apply b hb₁ hb₂ p j))

/-- Product, plus the outer product of a one-column array `u` with a one-row array `wu`, plus bias, at `(p, j)`. -/
theorem denseWith_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (u : FVec Ideal ⟨2, ![R, 1]⟩ .f32) (hu : (⟨2, ![R, 1]⟩ : Shape).Broadcasts ⟨2, ![R, N]⟩)
    (wu : FVec Ideal ⟨2, ![1, N]⟩ .f32) (hw₁ : (⟨2, ![1, N]⟩ : Shape).ShapeCasts ⟨2, ![1, N]⟩)
    (hw₂ : (⟨2, ![1, N]⟩ : Shape).Broadcasts ⟨2, ![R, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (addf (matmul d prec a (shapeCast ⟨2, ![K, N]⟩ w hc) (constant (F := Ideal) ⟨2, ![R, N]⟩ .f32 0x00000000#32))
          (mulf (broadcastTo ⟨2, ![R, N]⟩ u hu) (broadcastTo ⟨2, ![R, N]⟩ (shapeCast ⟨2, ![1, N]⟩ wu hw₁) hw₂)))
        (broadcastTo ⟨2, ![R, N]⟩ (shapeCast ⟨2, ![1, N]⟩ b hb₁) hb₂) (ix2 p j)
      = (∑ k : Fin K, row k * w (ix2 k j)) + u (ix2 p (0 : Fin 1)) * wu (ix2 (0 : Fin 1) j) + b (ix2 (0 : Fin 1) j) :=
  (addf_apply _ _ _).trans (congrArg₂ (· + ·)
    ((addf_apply _ _ _).trans (congrArg₂ (· + ·) (product_apply d hd prec a w hc p j row ha)
      ((mulf_apply _ _ _).trans (congrArg₂ (· * ·) (ColumnLayout.broadcastTo_a1_ab_apply u hu p j) (bias_apply wu hw₁ hw₂ p j)))))
    (bias_apply b hb₁ hb₂ p j))

/-- The index a sum along the row inserts: `(p, k)`. -/
theorem lift_row (hred : (⟨2, ![R, N]⟩ : Shape).Reduces [1] ⟨1, ![R]⟩) (p : Fin R) (k : Fin N) :
    hred.lift (ix1 p) k = ix2 p k := by
  funext x; apply Fin.ext
  match x with
  | ⟨0, _⟩ => rfl
  | ⟨1, _⟩ => rfl

/-- The rows divided by their Euclidean lengths kept above a floor, at `(p, j)`. -/
theorem unit_apply (a : FVec Ideal ⟨2, ![R, N]⟩ .f32) (fl : BitVec 32)
    (hred : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) (row : Fin N → EReal) (ha : ∀ k, a (ix2 p k) = row k) :
    divf a (broadcastTo ⟨2, ![R, N]⟩
        (maximumf (sqrt (shapeCast ⟨2, ![R, 1]⟩ (multiReduction .add [1] ⟨1, ![R]⟩ (mulf a a) 0x00000000#32 hred hφ hacc) hc))
          (broadcast ⟨2, ![R, 1]⟩ (Scalar.ofBits .f32 fl))) hb) (ix2 p j)
      = Ideal.div (row j) (max (Ideal.sqrt (∑ k : Fin N, row k * row k)) (Ideal.ofBits .f32 fl)) := by
  refine (divf_apply _ _ _).trans ?_
  rw [ColumnLayout.broadcastTo_a1_ab_apply _ hb p j, ha j]
  refine congrArg (fun s => Ideal.div (row j) (max (Ideal.sqrt s) (Ideal.ofBits .f32 fl))) ?_
  refine (ColumnLayout.shapeCast_a_a1_apply _ hc p 0).trans ?_
  refine (Ideal.multiReduction_add_single (mulf a a) 0x00000000#32 hred hφ hacc (ix1 p)).trans ?_
  exact Finset.sum_congr rfl fun k _ => by
    rw [lift_row hred p k]
    exact (mulf_apply a a _).trans (by rw [ha k])

end Cert.RowLayers

end
-- ==== Proof.KernelRow.lean ====
/-
  What the kernel's body computes, one row at a time.

  The body works on a block of 4096 rows: the state block `[4096, 12]`, the action block `[4096, 1]` and the
  weights as it receives them — every matrix already input-coordinate-first (`[K, N]`), every bias and each of the
  two separated weight columns as a `[1, N]` row. Its arithmetic is three pure terms of those blocks (the
  skeleton's payloads); read at row `p` each is the corresponding stage of the network of `Net.lean` applied to row
  `p` of the state block and entry `p` of the action block. The bf16 roundings on the way into each product are the
  identity on the extended reals, and a product into a zero accumulator is the plain sum of products.
-/
import proofs.«179178_j74294344286850_2_alg».proof.Proof.Gen.KernelIdeal.Skeleton
import proofs.«179178_j74294344286850_2_alg».proof.Proof.Net
import proofs.«179178_j74294344286850_2_alg».proof.Proof.LibRowLayers

noncomputable section

namespace Cert.KernelRow

open Idealize.ShloMosaic Idealize.ShloMosaic.ValueIdx Cert.KernelIdeal Cert.KernelIdeal.Gen Cert.Dense Cert.RowLayers

/-! ## The six products contract rows with columns -/

theorem rc_12_64 : RowsCols dot_S4096x12_S12x64_S4096x64_1_0_0_1_n_n :=
  ⟨rfl, rfl, fun _ _ => rfl, fun _ _ => rfl, fun _ _ => rfl, fun _ _ => rfl⟩
theorem rc_64_64 : RowsCols dot_S4096x64_S64x64_S4096x64_1_0_0_1_n_n :=
  ⟨rfl, rfl, fun _ _ => rfl, fun _ _ => rfl, fun _ _ => rfl, fun _ _ => rfl⟩
theorem rc_64_32 : RowsCols dot_S4096x64_S64x32_S4096x32_1_0_0_1_n_n :=
  ⟨rfl, rfl, fun _ _ => rfl, fun _ _ => rfl, fun _ _ => rfl, fun _ _ => rfl⟩
theorem rc_32_400 : RowsCols dot_S4096x32_S32x400_S4096x400_1_0_0_1_n_n :=
  ⟨rfl, rfl, fun _ _ => rfl, fun _ _ => rfl, fun _ _ => rfl, fun _ _ => rfl⟩
theorem rc_400_300 : RowsCols dot_S4096x400_S400x300_S4096x300_1_0_0_1_n_n :=
  ⟨rfl, rfl, fun _ _ => rfl, fun _ _ => rfl, fun _ _ => rfl, fun _ _ => rfl⟩
theorem rc_300_32 : RowsCols dot_S4096x300_S300x32_S4096x32_1_0_0_1_n_n :=
  ⟨rfl, rfl, fun _ _ => rfl, fun _ _ => rfl, fun _ _ => rfl, fun _ _ => rfl⟩

/-! ## The three payloads at a row -/

/-- The first perceptron up to its last product, at row `p`. -/
theorem up_apply (v0 : Vec Ideal S4096x12 .f32) (v1 : Vec Ideal S4096x1 .f32) (v3 : Vec Ideal S12x64 .bf16)
    (v6 v12 : Vec Ideal S1x64 .f32) (v26 : Vec Ideal S64x64 .bf16) (v29 : Vec Ideal S1x64 .f32)
    (v35 : Vec Ideal S64x32 .bf16) (p : Fin 4096) (q : Fin 32) :
    k0_pay2 v0 v1 v3 v6 v12 v26 v29 v35 (ix2 p q)
      = Net.up (fun k => v0 (ix2 p k)) (v1 (ix2 p (0 : Fin 1))) (fun k j => v3 (ix2 k j)) (fun j => v6 (ix2 (0 : Fin 1) j))
          (fun j => v12 (ix2 (0 : Fin 1) j)) (fun k j => v26 (ix2 k j)) (fun j => v29 (ix2 (0 : Fin 1) j))
          (fun k j => v35 (ix2 k j)) q := by
  unfold k0_pay2 Net.up Net.mm Net.unit Net.floor
  refine product_apply _ rc_64_32 _ _ _ _ p q _ (fun k => ?_)
  refine congrArg Ideal.tanh ?_
  refine dense_apply _ rc_64_64 _ _ _ _ _ _ _ p k _ (fun k' => ?_)
  refine congrArg Ideal.tanh ?_
  refine unit_apply _ _ _ _ _ _ _ p k' _ (fun i => ?_)
  exact denseWith_apply _ rc_12_64 _ _ _ _ _ _ _ _ _ _ _ _ p i _ (fun _ => rfl)

/-- From that product to the second hidden layer of the second perceptron, at row `p`. -/
theorem mid_apply (v1 : Vec Ideal S4096x1 .f32) (v37 : FVec Ideal S4096x32 .f32) (v38 : Vec Ideal S1x32 .f32)
    (v51 : Vec Ideal S32x400 .bf16) (v54 v60 : Vec Ideal S1x400 .f32) (v67 : Vec Ideal S400x300 .bf16)
    (v70 : Vec Ideal S1x300 .f32) (p : Fin 4096) (q : Fin 300) (s : Fin 32 → EReal) (hs : ∀ k, v37 (ix2 p k) = s k) :
    k0_pay3 v1 v37 v38 v51 v54 v60 v67 v70 (ix2 p q)
      = Net.mid (v1 (ix2 p (0 : Fin 1))) s (fun j => v38 (ix2 (0 : Fin 1) j)) (fun k j => v51 (ix2 k j))
          (fun j => v54 (ix2 (0 : Fin 1) j)) (fun j => v60 (ix2 (0 : Fin 1) j)) (fun k j => v67 (ix2 k j))
          (fun j => v70 (ix2 (0 : Fin 1) j)) q := by
  unfold k0_pay3 Net.mid Net.mm Net.unit Net.floor Net.zero
  refine congrArg (max · (Ideal.ofBits .f32 0x00000000#32)) ?_
  refine dense_apply _ rc_400_300 _ _ _ _ _ _ _ p q _ (fun k => ?_)
  refine congrArg (max · (Ideal.ofBits .f32 0x00000000#32)) ?_
  refine denseWith_apply _ rc_32_400 _ _ _ _ _ _ _ _ _ _ _ _ p k _ (fun k' => ?_)
  refine unit_apply _ _ _ _ _ _ _ p k' _ (fun i => ?_)
  refine (addf_apply _ _ _).trans (congrArg₂ (· + ·) (hs i) (bias_apply _ _ _ p i))

/-- The last layer, at row `p`. -/
theorem out_apply (v76 : FVec Ideal S4096x300 .bf16) (v77 : Vec Ideal S300x32 .bf16) (v80 : Vec Ideal S1x32 .f32)
    (p : Fin 4096) (q : Fin 32) (h : Fin 300 → EReal) (hh : ∀ k, v76 (ix2 p k) = h k) :
    k0_pay1 v76 v77 v80 (ix2 p q) = Net.out h (fun k j => v77 (ix2 k j)) (fun j => v80 (ix2 (0 : Fin 1) j)) q := by
  unfold k0_pay1 Net.out Net.mm
  exact dense_apply _ rc_300_32 _ _ _ _ _ _ _ p q _ hh

/-- The whole body at row `p`: the three payloads composed are the network applied to row `p` of the state block
    and entry `p` of the action block, with the weights the blocks hold. -/
theorem body_row (x0 : Vec Ideal S4096x12 .f32) (x1 : Vec Ideal S4096x1 .f32) (x2 : Vec Ideal S12x64 .bf16)
    (x3 x4 : Vec Ideal S1x64 .f32) (x5 : Vec Ideal S64x64 .bf16) (x6 : Vec Ideal S1x64 .f32) (x7 : Vec Ideal S64x32 .bf16)
    (x8 : Vec Ideal S1x32 .f32) (x9 : Vec Ideal S32x400 .bf16) (x10 x11 : Vec Ideal S1x400 .f32)
    (x12 : Vec Ideal S400x300 .bf16) (x13 : Vec Ideal S1x300 .f32) (x14 : Vec Ideal S300x32 .bf16)
    (x15 : Vec Ideal S1x32 .f32) (p : Fin 4096) (q : Fin 32) :
    k0_pay1 (k0_pay3 x1 (k0_pay2 x0 x1 x2 x3 x4 x5 x6 x7) x8 x9 x10 x11 x12 x13) x14 x15 (ix2 p q)
      = Net.out
          (Net.mid (x1 (ix2 p (0 : Fin 1)))
            (Net.up (fun k => x0 (ix2 p k)) (x1 (ix2 p (0 : Fin 1))) (fun k j => x2 (ix2 k j)) (fun j => x3 (ix2 (0 : Fin 1) j))
              (fun j => x4 (ix2 (0 : Fin 1) j)) (fun k j => x5 (ix2 k j)) (fun j => x6 (ix2 (0 : Fin 1) j)) (fun k j => x7 (ix2 k j)))
            (fun j => x8 (ix2 (0 : Fin 1) j)) (fun k j => x9 (ix2 k j)) (fun j => x10 (ix2 (0 : Fin 1) j))
            (fun j => x11 (ix2 (0 : Fin 1) j)) (fun k j => x12 (ix2 k j)) (fun j => x13 (ix2 (0 : Fin 1) j)))
          (fun k j => x14 (ix2 k j)) (fun j => x15 (ix2 (0 : Fin 1) j)) q :=
  out_apply _ x14 x15 p q _ fun k =>
    mid_apply x1 _ x8 x9 x10 x11 x12 x13 p k _ fun k' => up_apply x0 x1 x2 x3 x4 x5 x6 x7 p k'

end Cert.KernelRow

end
-- ==== Proof.Spec.lean ====
/-
  The result array both programs end at, as ONE function of the fourteen argument arrays.

  Row `r` of the result is the network of `Net.lean` applied to row `r` of `state` and entry `r` of `action`. The
  weights arrive one row per OUTPUT (`up_w1 : [64, 13]`, …), so the matrix that multiplies input `k` into output
  `j` is the argument read at `(j, k)`. The first layer's thirteenth column (the action's weight) and the
  fourth layer's thirty-third column are read apart from the columns before them; the columns after them
  (`up_w2`'s last 64, `dyn_w1`'s last 32) multiply inputs that are identically zero and do not appear.
-/
import Idealize.ShloMosaic.Lib.ValueIdx
import proofs.«179178_j74294344286850_2_alg».proof.Proof.Net

noncomputable section

namespace Cert.Spec

open Idealize.ShloMosaic Idealize.ShloMosaic.ValueIdx

/-- The shape of an `[a, b]` array and of an `[a]` array. -/
abbrev Sh2 (a b : Nat) : Shape := ⟨2, ![a, b]⟩
abbrev Sh1 (a : Nat) : Shape := ⟨1, ![a]⟩

/-- The first `n` columns of a weight array kept one row per output, as a matrix input-coordinate-first. -/
def cols {N W : Nat} (n : Nat) (h : n ≤ W) (w : (Sh2 N W).Idx → EReal) : Fin n → Fin N → EReal :=
  fun k j => w (ix2 j (k.castLE h))

/-- One column of such an array. -/
def col {N W : Nat} (c : Fin W) (w : (Sh2 N W).Idx → EReal) : Fin N → EReal := fun j => w (ix2 j c)

/-- A vector as a function of its coordinate. -/
def vec {N : Nat} (b : (Sh1 N).Idx → EReal) : Fin N → EReal := fun j => b (ix1 j)

/-- Row `r` of the result, from the argument arrays. -/
def row (state : (Sh2 262144 12).Idx → EReal) (action : (Sh2 262144 1).Idx → EReal)
    (w1 : (Sh2 64 13).Idx → EReal) (b1 : (Sh1 64).Idx → EReal) (w2 : (Sh2 64 128).Idx → EReal) (b2 : (Sh1 64).Idx → EReal)
    (w3 : (Sh2 32 64).Idx → EReal) (b3 : (Sh1 32).Idx → EReal) (d1 : (Sh2 400 65).Idx → EReal) (c1 : (Sh1 400).Idx → EReal)
    (d2 : (Sh2 300 400).Idx → EReal) (c2 : (Sh1 300).Idx → EReal) (d3 : (Sh2 32 300).Idx → EReal) (c3 : (Sh1 32).Idx → EReal)
    (r : Fin 262144) : Fin 32 → EReal :=
  Net.out
    (Net.mid (action (ix2 r (0 : Fin 1)))
      (Net.up (fun k => state (ix2 r k)) (action (ix2 r (0 : Fin 1)))
        (cols 12 (by decide) w1) (col (12 : Fin 13) w1) (vec b1) (cols 64 (by decide) w2) (vec b2) (cols 64 (by decide) w3))
      (vec b3) (cols 32 (by decide) d1) (col (32 : Fin 65) d1) (vec c1) (cols 400 (by decide) d2) (vec c2))
    (cols 300 (by decide) d3) (vec c3)

/-- The whole result array. -/
def G (state : (Sh2 262144 12).Idx → EReal) (action : (Sh2 262144 1).Idx → EReal)
    (w1 : (Sh2 64 13).Idx → EReal) (b1 : (Sh1 64).Idx → EReal) (w2 : (Sh2 64 128).Idx → EReal) (b2 : (Sh1 64).Idx → EReal)
    (w3 : (Sh2 32 64).Idx → EReal) (b3 : (Sh1 32).Idx → EReal) (d1 : (Sh2 400 65).Idx → EReal) (c1 : (Sh1 400).Idx → EReal)
    (d2 : (Sh2 300 400).Idx → EReal) (c2 : (Sh1 300).Idx → EReal) (d3 : (Sh2 32 300).Idx → EReal) (c3 : (Sh1 32).Idx → EReal) :
    (Sh2 262144 32).Idx → EReal :=
  fun i => row state action w1 b1 w2 b2 w3 b3 d1 c1 d2 c2 d3 c3 (i 0) (i 1)

end Cert.Spec

end
-- ==== Proof.KernelWinBlocks.lean ====
/-
  The kernel's windows as blocks of arrays.

  The two streamed windows (state, action) hold at grid point `t` rows `4096·t … 4096·t + 4095` of their arguments:
  the block index on the rows' axis is `t`, decided over the 64 grid points. Each of the fourteen weight windows has
  block index (0, 0) at every point and a block as large as its array, so its block IS the array the host prepared
  before the launch.
-/
import proofs.«179178_j74294344286850_2_alg».proof.Proof.Gen.KernelIdeal.Frame
import Idealize.ShloMosaic.Lib.Pipeline.Value
import Idealize.ShloMosaic.Lib.ValueLayout
import Idealize.ShloMosaic.PureOps.Ideal.Laws
import proofs.«179178_j74294344286850_2_alg».proof.Proof.Spec

noncomputable section

namespace Cert.KernelWin

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ)

/-! ## The argument arrays on core `c`, as functions of an index -/

abbrev A0 (c : Dev nD) : (Sh2 262144 12).Idx → EReal := m ((c : Thread nD τ).loc main_arg0)
abbrev A1 (c : Dev nD) : (Sh2 262144 1).Idx → EReal := m ((c : Thread nD τ).loc main_arg1)
abbrev A2 (c : Dev nD) : (Sh2 64 13).Idx → EReal := m ((c : Thread nD τ).loc main_arg2)
abbrev A3 (c : Dev nD) : (Sh1 64).Idx → EReal := m ((c : Thread nD τ).loc main_arg3)
abbrev A4 (c : Dev nD) : (Sh2 64 128).Idx → EReal := m ((c : Thread nD τ).loc main_arg4)
abbrev A5 (c : Dev nD) : (Sh1 64).Idx → EReal := m ((c : Thread nD τ).loc main_arg5)
abbrev A6 (c : Dev nD) : (Sh2 32 64).Idx → EReal := m ((c : Thread nD τ).loc main_arg6)
abbrev A7 (c : Dev nD) : (Sh1 32).Idx → EReal := m ((c : Thread nD τ).loc main_arg7)
abbrev A8 (c : Dev nD) : (Sh2 400 65).Idx → EReal := m ((c : Thread nD τ).loc main_arg8)
abbrev A9 (c : Dev nD) : (Sh1 400).Idx → EReal := m ((c : Thread nD τ).loc main_arg9)
abbrev A10 (c : Dev nD) : (Sh2 300 400).Idx → EReal := m ((c : Thread nD τ).loc main_arg10)
abbrev A11 (c : Dev nD) : (Sh1 300).Idx → EReal := m ((c : Thread nD τ).loc main_arg11)
abbrev A12 (c : Dev nD) : (Sh2 32 300).Idx → EReal := m ((c : Thread nD τ).loc main_arg12)
abbrev A13 (c : Dev nD) : (Sh1 32).Idx → EReal := m ((c : Thread nD τ).loc main_arg13)

/-! ## The streamed windows: block `t` is rows `4096·t …` -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)

/-- The state window at point `t`, row `p`: row `4096·t + p` of the state. -/
theorem state_blk (c : Dev nD) (t : Fin cfg0.N) (p : Fin 4096) (k : Fin 12) (hr : 4096 * t.val + p.val < 262144) :
    (iblk m c 0 t : Vec Ideal S4096x12 .f32) (ix2 p k) = A0 m c (ix2 ⟨4096 * t.val + p.val, hr⟩ k) := by
  unfold iblk
  rw [View.read_apply]
  show V m c main_arg0 (((cfg0.win 0).blk t).view.emb (ix2 p k)) = _
  rw [V_main_arg0]
  refine congrArg (m ((c : Thread nD τ).loc main_arg0)) (funext fun a => Fin.ext ?_)
  obtain ⟨e0, e1⟩ := idx0 t
  match a with
  | ⟨0, _⟩ => show win0_0.index t (0 : Fin 2) * 4096 + 1 * p.val = 4096 * t.val + p.val; omega
  | ⟨1, _⟩ => show win0_0.index t (1 : Fin 2) * 12 + 1 * k.val = k.val; omega

/-- The action window at point `t`, row `p`: entry `4096·t + p` of the action. -/
theorem action_blk (c : Dev nD) (t : Fin cfg0.N) (p : Fin 4096) (hr : 4096 * t.val + p.val < 262144) :
    (iblk m c 1 t : Vec Ideal S4096x1 .f32) (ix2 p (0 : Fin 1)) = A1 m c (ix2 ⟨4096 * t.val + p.val, hr⟩ (0 : Fin 1)) := by
  unfold iblk
  rw [View.read_apply]
  show V m c main_arg1 (((cfg0.win 1).blk t).view.emb (ix2 p (0 : Fin 1))) = _
  rw [V_main_arg1]
  refine congrArg (m ((c : Thread nD τ).loc main_arg1)) (funext fun a => Fin.ext ?_)
  obtain ⟨e0, e1⟩ := idx1 t
  match a with
  | ⟨0, _⟩ => show win0_1.index t (0 : Fin 2) * 4096 + 1 * p.val = 4096 * t.val + p.val; omega
  | ⟨1, _⟩ => show win0_1.index t (1 : Fin 2) * 1 + 1 * 0 = 0; omega

/-! ## The weight windows: each block is the whole array the host prepared -/

set_option hygiene false in
/-- Window `K` (printed `w`) over the array `arr` of extents `n0 × n1`: its block index is (0, 0) at every grid
    point (decided over the grid) and its block has the array's extents, so an element's place in the array is its
    place in the block. Used where `m`, `c`, `t` are in scope. -/
local macro "whole_block " K:num ", " w:ident ", " arr:ident ", " n0:num ", " n1:num : tactic => `(tactic| (
  funext y; unfold iblk; rw [View.read_apply]
  show V m c $arr (((cfg0.win $K).blk t).view.emb y) = V m c $arr y
  refine congrArg (V m c $arr) (funext fun a => Fin.ext ?_)
  obtain ⟨e0, e1⟩ := (by decide +kernel : ∀ t : Fin grid0.N, ($w).index t (0 : Fin 2) = 0 ∧ ($w).index t (1 : Fin 2) = 0) t
  match a with
  | ⟨0, _⟩ => (show ($w).index t (0 : Fin 2) * $n0 + 1 * (y 0).val = (y 0).val; omega)
  | ⟨1, _⟩ => (show ($w).index t (1 : Fin 2) * $n1 + 1 * (y 1).val = (y 1).val; omega)))

theorem whole2 (c : Dev nD) (t : Fin cfg0.N) : (iblk m c 2 t : Vec Ideal S12x64 .bf16) = V m c main_v2 := by
  whole_block 2, win0_2, main_v2, 12, 64
theorem whole3 (c : Dev nD) (t : Fin cfg0.N) : (iblk m c 3 t : Vec Ideal S1x64 .f32) = V m c main_v5 := by
  whole_block 3, win0_3, main_v5, 1, 64
theorem whole4 (c : Dev nD) (t : Fin cfg0.N) : (iblk m c 4 t : Vec Ideal S1x64 .f32) = V m c main_v21 := by
  whole_block 4, win0_4, main_v21, 1, 64
theorem whole5 (c : Dev nD) (t : Fin cfg0.N) : (iblk m c 5 t : Vec Ideal S64x64 .bf16) = V m c main_v8 := by
  whole_block 5, win0_5, main_v8, 64, 64
theorem whole6 (c : Dev nD) (t : Fin cfg0.N) : (iblk m c 6 t : Vec Ideal S1x64 .f32) = V m c main_v22 := by
  whole_block 6, win0_6, main_v22, 1, 64
theorem whole7 (c : Dev nD) (t : Fin cfg0.N) : (iblk m c 7 t : Vec Ideal S64x32 .bf16) = V m c main_v10 := by
  whole_block 7, win0_7, main_v10, 64, 32
theorem whole8 (c : Dev nD) (t : Fin cfg0.N) : (iblk m c 8 t : Vec Ideal S1x32 .f32) = V m c main_v23 := by
  whole_block 8, win0_8, main_v23, 1, 32
theorem whole9 (c : Dev nD) (t : Fin cfg0.N) : (iblk m c 9 t : Vec Ideal S32x400 .bf16) = V m c main_v13 := by
  whole_block 9, win0_9, main_v13, 32, 400
theorem whole10 (c : Dev nD) (t : Fin cfg0.N) : (iblk m c 10 t : Vec Ideal S1x400 .f32) = V m c main_v16 := by
  whole_block 10, win0_10, main_v16, 1, 400
theorem whole11 (c : Dev nD) (t : Fin cfg0.N) : (iblk m c 11 t : Vec Ideal S1x400 .f32) = V m c main_v24 := by
  whole_block 11, win0_11, main_v24, 1, 400
theorem whole12 (c : Dev nD) (t : Fin cfg0.N) : (iblk m c 12 t : Vec Ideal S400x300 .bf16) = V m c main_v18 := by
  whole_block 12, win0_12, main_v18, 400, 300
theorem whole13 (c : Dev nD) (t : Fin cfg0.N) : (iblk m c 13 t : Vec Ideal S1x300 .f32) = V m c main_v25 := by
  whole_block 13, win0_13, main_v25, 1, 300
theorem whole14 (c : Dev nD) (t : Fin cfg0.N) : (iblk m c 14 t : Vec Ideal S300x32 .bf16) = V m c main_v20 := by
  whole_block 14, win0_14, main_v20, 300, 32
theorem whole15 (c : Dev nD) (t : Fin cfg0.N) : (iblk m c 15 t : Vec Ideal S1x32 .f32) = V m c main_v26 := by
  whole_block 15, win0_15, main_v26, 1, 32

end Cert.KernelWin

end
-- ==== Proof.KernelWinHost.lean ====
/-
  What the host prepares before the launch, as terms of the argument arrays.

  Each weight matrix is transposed to input-coordinate-first (after a cut to its leading columns where the layer's
  trailing inputs are identically zero) and converted to bf16; the thirteenth column of the first layer's weights and
  the thirty-third of the fourth layer's are cut out, flattened and laid as `[1, N]` rows; the six biases are laid as
  `[1, N]` rows. Each equation below reads the prepared array off the list of host operations.
-/
import proofs.«179178_j74294344286850_2_alg».proof.Proof.Gen.KernelIdeal.Frame
import Idealize.ShloMosaic.Lib.StableHlo.Run
import Idealize.ShloMosaic.PureOps.Ideal.Laws

noncomputable section

namespace Cert.KernelWin

open Idealize.ShloMosaic Idealize.ShloMosaic.TcCoe Idealize.SL.Sem
open Cert.KernelIdeal Cert.KernelIdeal.Gen Idealize.ShloMosaic.StableHlo

variable (m : (ℓ : Loc nD τ sig) → Buf (Elt Ideal) ℓ)

theorem host2 (c : Dev nD) : (V m c main_v2 : FVec Ideal S12x64 .bf16)
    = truncf (F := Ideal) .bf16 (transpose S12x64 [1, 0] (extractStridedSlice S64x12 ![0, 0]
        (m ((c : Thread nD τ).loc main_arg2) : FVec Ideal S64x13 .f32) Facts₀.slices_S64x13_S64x12_0_0)
        Facts₀.transposes_S64x12_S12x64_1_0) Facts₀.bitsLt_bf16_f32 := by
  dsimp only [V, hostOps0]; after_results; try rfl
theorem host3 (c : Dev nD) : (V m c main_v5 : FVec Ideal S1x64 .f32)
    = shapeCast S1x64 (shapeCast S64 (extractStridedSlice S64x1 ![0, 12]
        (m ((c : Thread nD τ).loc main_arg2) : FVec Ideal S64x13 .f32) Facts₀.slices_S64x13_S64x1_0_12)
        Facts₀.shapeCasts_S64x1_S64) Facts₀.shapeCasts_S64_S1x64 := by
  dsimp only [V, hostOps0]; after_results; try rfl
theorem host4 (c : Dev nD) : (V m c main_v21 : FVec Ideal S1x64 .f32)
    = shapeCast S1x64 (m ((c : Thread nD τ).loc main_arg3) : FVec Ideal S64 .f32) Facts₀.shapeCasts_S64_S1x64 := by
  dsimp only [V, hostOps0]; after_results; try rfl
theorem host5 (c : Dev nD) : (V m c main_v8 : FVec Ideal S64x64 .bf16)
    = truncf (F := Ideal) .bf16 (transpose S64x64 [1, 0] (extractStridedSlice S64x64 ![0, 0]
        (m ((c : Thread nD τ).loc main_arg4) : FVec Ideal S64x128 .f32) Facts₀.slices_S64x128_S64x64_0_0)
        Facts₀.transposes_S64x64_S64x64_1_0) Facts₀.bitsLt_bf16_f32 := by
  dsimp only [V, hostOps0]; after_results; try rfl
theorem host6 (c : Dev nD) : (V m c main_v22 : FVec Ideal S1x64 .f32)
    = shapeCast S1x64 (m ((c : Thread nD τ).loc main_arg5) : FVec Ideal S64 .f32) Facts₀.shapeCasts_S64_S1x64 := by
  dsimp only [V, hostOps0]; after_results; try rfl
theorem host7 (c : Dev nD) : (V m c main_v10 : FVec Ideal S64x32 .bf16)
    = truncf (F := Ideal) .bf16 (transpose S64x32 [1, 0]
        (m ((c : Thread nD τ).loc main_arg6) : FVec Ideal S32x64 .f32) Facts₀.transposes_S32x64_S64x32_1_0)
        Facts₀.bitsLt_bf16_f32 := by
  dsimp only [V, hostOps0]; after_results; try rfl
theorem host8 (c : Dev nD) : (V m c main_v23 : FVec Ideal S1x32 .f32)
    = shapeCast S1x32 (m ((c : Thread nD τ).loc main_arg7) : FVec Ideal S32 .f32) Facts₀.shapeCasts_S32_S1x32 := by
  dsimp only [V, hostOps0]; after_results; try rfl
theorem host9 (c : Dev nD) : (V m c main_v13 : FVec Ideal S32x400 .bf16)
    = truncf (F := Ideal) .bf16 (transpose S32x400 [1, 0] (extractStridedSlice S400x32 ![0, 0]
        (m ((c : Thread nD τ).loc main_arg8) : FVec Ideal S400x65 .f32) Facts₀.slices_S400x65_S400x32_0_0)
        Facts₀.transposes_S400x32_S32x400_1_0) Facts₀.bitsLt_bf16_f32 := by
  dsimp only [V, hostOps0]; after_results; try rfl
theorem host10 (c : Dev nD) : (V m c main_v16 : FVec Ideal S1x400 .f32)
    = shapeCast S1x400 (shapeCast S400 (extractStridedSlice S400x1 ![0, 32]
        (m ((c : Thread nD τ).loc main_arg8) : FVec Ideal S400x65 .f32) Facts₀.slices_S400x65_S400x1_0_32)
        Facts₀.shapeCasts_S400x1_S400) Facts₀.shapeCasts_S400_S1x400 := by
  dsimp only [V, hostOps0]; after_results; try rfl
theorem host11 (c : Dev nD) : (V m c main_v24 : FVec Ideal S1x400 .f32)
    = shapeCast S1x400 (m ((c : Thread nD τ).loc main_arg9) : FVec Ideal S400 .f32) Facts₀.shapeCasts_S400_S1x400 := by
  dsimp only [V, hostOps0]; after_results; try rfl
theorem host12 (c : Dev nD) : (V m c main_v18 : FVec Ideal S400x300 .bf16)
    = truncf (F := Ideal) .bf16 (transpose S400x300 [1, 0]
        (m ((c : Thread nD τ).loc main_arg10) : FVec Ideal S300x400 .f32) Facts₀.transposes_S300x400_S400x300_1_0)
        Facts₀.bitsLt_bf16_f32 := by
  dsimp only [V, hostOps0]; after_results; try rfl
theorem host13 (c : Dev nD) : (V m c main_v25 : FVec Ideal S1x300 .f32)
    = shapeCast S1x300 (m ((c : Thread nD τ).loc main_arg11) : FVec Ideal S300 .f32) Facts₀.shapeCasts_S300_S1x300 := by
  dsimp only [V, hostOps0]; after_results; try rfl
theorem host14 (c : Dev nD) : (V m c main_v20 : FVec Ideal S300x32 .bf16)
    = truncf (F := Ideal) .bf16 (transpose S300x32 [1, 0]
        (m ((c : Thread nD τ).loc main_arg12) : FVec Ideal S32x300 .f32) Facts₀.transposes_S32x300_S300x32_1_0)
        Facts₀.bitsLt_bf16_f32 := by
  dsimp only [V, hostOps0]; after_results; try rfl
theorem host15 (c : Dev nD) : (V m c main_v26 : FVec Ideal S1x32 .f32)
    = shapeCast S1x32 (m ((c : Thread nD τ).loc main_arg13) : FVec Ideal S32 .f32) Facts₀.shapeCasts_S32_S1x32 := by
  dsimp only [V, hostOps0]; after_results; try rfl

end Cert.KernelWin

end
-- ==== Proof.LibRowwise.lean ====
/-
  Arrays handled row by row.

  A two-dimensional array `a` with `R` rows *is the rows `f p` of `b`* (`RowsOf f a b`) when
  `a (p, c) = b (f p, c)` for every row `p` and column `c`; a block of consecutive rows of a taller array is the
  example to have in mind (`f p = first + p`). Every operation that treats each row on its own carries the relation
  from its operands to its result:

  * a unit-stride slice of columns `[o, o + w)` (`RowsOf.slice`);
  * the broadcast of a one-column array along the columns, the shorter array's in the vector form
    (`broadcastTo`) and the taller one's in the host's form (`broadcastInDim … ![0, 1]`) (`RowsOf.bcast`);
  * a pointwise product (`RowsOf.mulf`);
  * a concatenation of pieces along the columns, through `concatCols_ix2`: at column `k` inside the span
    `[pre, pre + w)` of piece `n`, the concatenation is that piece at column `k - pre` of the same row.

  Each operation is first read at an index `(p, c)` given by its two coordinates (`slice_ix2`, `bcastTo_ix2`,
  `bcastInDim_ix2`), in any element type.
-/
import Idealize.ShloMosaic.Lib.Pipeline.Value
import Idealize.ShloMosaic.Lib.ValueIdx

noncomputable section

namespace Cert.Lib.Rowwise

open Idealize.ShloMosaic Idealize.ShloMosaic.ValueIdx

variable {α : Type}

/-- The shape of an array of `R` rows and `w` columns. -/
abbrev Sh2 (R w : Nat) : Shape := ⟨2, ![R, w]⟩

/-- `a` is the rows `f p` of `b`: entry `(p, c)` of `a` is entry `(f p, c)` of `b`. -/
def RowsOf {R R' w : Nat} (f : Fin R → Fin R') (a : (Sh2 R w).Idx → α) (b : (Sh2 R' w).Idx → α) : Prop :=
  ∀ (p : Fin R) (c : Fin w), a (ix2 p c) = b (ix2 (f p) c)

/-- Columns `[o, o + w)` of `a`, read at `(p, c)`: `a` at `(p, o + c)`. -/
theorem slice_ix2 {R W w : Nat} (o : Nat) (a : (Sh2 R W).Idx → α) (h : (Sh2 R W).Slices ![0, o] (Sh2 R w))
    (p : Fin R) (c : Fin w) (hc : o + c.val < W) :
    extractStridedSlice (Sh2 R w) ![0, o] a h (ix2 p c) = a (ix2 p ⟨o + c.val, hc⟩) :=
  extractStridedSlice_apply ![0, o] a h (ix2 p c) (ix2 p ⟨o + c.val, hc⟩) (fun d => match d with
    | ⟨0, _⟩ => by show p.val = 0 + p.val; omega
    | ⟨1, _⟩ => rfl)

/-- A one-column array spread over `w` columns (the vector form), read at `(p, c)`: its entry in row `p`. -/
theorem bcastTo_ix2 {R w : Nat} (a : (Sh2 R 1).Idx → α) (h : (Sh2 R 1).Broadcasts (Sh2 R w)) (p : Fin R) (c : Fin w) :
    broadcastTo (Sh2 R w) a h (ix2 p c) = a (ix2 p 0) :=
  broadcastTo_apply a h (ix2 p c) (ix2 p 0) (fun d => match d with
    | ⟨0, _⟩ => by
        show p.val = if R = 1 then 0 else p.val
        split
        · have := p.isLt; omega
        · rfl
    | ⟨1, _⟩ => rfl)

/-- A one-column array spread over `w` columns (the host's form, both axes kept), read at `(p, c)`: its entry in
    row `p`. -/
theorem bcastInDim_ix2 {R w : Nat} (a : (Sh2 R 1).Idx → α) (h : (Sh2 R 1).BroadcastsInDim (Sh2 R w) ![0, 1])
    (p : Fin R) (c : Fin w) :
    broadcastInDim (Sh2 R w) ![0, 1] h a (ix2 p c) = a (ix2 p 0) :=
  broadcastInDim_apply ![0, 1] h a (ix2 p c) (ix2 p 0) (fun d => match d with
    | ⟨0, _⟩ => by
        show p.val = if R = 1 then 0 else p.val
        split
        · have := p.isLt; omega
        · rfl
    | ⟨1, _⟩ => rfl)

/-- A slice of columns acts row by row. -/
theorem RowsOf.slice {R R' W w : Nat} {f : Fin R → Fin R'} {a : (Sh2 R W).Idx → α} {b : (Sh2 R' W).Idx → α}
    (hab : RowsOf f a b) (o : Nat) (hoW : o + w ≤ W)
    (h : (Sh2 R W).Slices ![0, o] (Sh2 R w)) (h' : (Sh2 R' W).Slices ![0, o] (Sh2 R' w)) :
    RowsOf f (extractStridedSlice (Sh2 R w) ![0, o] a h) (extractStridedSlice (Sh2 R' w) ![0, o] b h') := by
  intro p c
  have hc : o + c.val < W := by have := c.isLt; omega
  rw [slice_ix2 o a h p c hc, slice_ix2 o b h' (f p) c hc]
  exact hab p _

/-- Spreading a column over the columns acts row by row (the vector form on the one side, the host's on the other). -/
theorem RowsOf.bcast {R R' w : Nat} {f : Fin R → Fin R'} {a : (Sh2 R 1).Idx → α} {b : (Sh2 R' 1).Idx → α}
    (hab : RowsOf f a b) (h : (Sh2 R 1).Broadcasts (Sh2 R w)) (h' : (Sh2 R' 1).BroadcastsInDim (Sh2 R' w) ![0, 1]) :
    RowsOf f (broadcastTo (Sh2 R w) a h) (broadcastInDim (Sh2 R' w) ![0, 1] h' b) := by
  intro p c
  rw [bcastTo_ix2, bcastInDim_ix2]
  exact hab p 0

/-- A pointwise product acts row by row. -/
theorem RowsOf.mulf {F : FTy → Type} [FloatOps F] {φ : FTy} {R R' w : Nat} {f : Fin R → Fin R'}
    {a a' : FVec F (Sh2 R w) φ} {b b' : FVec F (Sh2 R' w) φ}
    (h : RowsOf f a b) (h' : RowsOf f a' b') : RowsOf f (Idealize.ShloMosaic.mulf a a') (Idealize.ShloMosaic.mulf b b') := by
  intro p c
  show FloatOps.mulf (a _) (a' _) = FloatOps.mulf (b _) (b' _)
  rw [h p c, h' p c]

/-- The widths of the first `n` pieces of a concatenation along the columns add up as the first `n` entries of
    the list of widths. -/
theorem widths_take_sum {R C : Nat} : ∀ (xs : List ((s : Shape) × (s.Idx → α))) (ws : List Nat),
    xs.map (·.1) = ws.map (fun w => Sh2 R w) → ∀ n : Nat,
    (((xs.take n).map (·.1)).map fun s =>
      if h : s.rank = (Sh2 R C).rank then s.size ((1 : Fin (Sh2 R C).rank).cast h.symm) else 0).sum = (ws.take n).sum
  | _, _, _, 0 => by simp
  | [], [], _, _ + 1 => by simp
  | [], _ :: _, h, _ => by simp at h
  | _ :: _, [], h, _ => by simp at h
  | x :: xs, w :: ws, h, n + 1 => by
    simp only [List.map_cons, List.cons.injEq] at h
    simp only [List.take_succ_cons, List.map_cons, List.sum_cons]
    rw [widths_take_sum xs ws h.2 n, h.1]
    show (if h : (2 : ℕ) = 2 then (![R, w] : Fin 2 → ℕ) ((1 : Fin 2).cast h.symm) else 0) + _ = _
    rw [dif_pos rfl]
    rfl

/-- A concatenation along the columns of pieces of widths `ws`, read at `(p, k)` with `k` inside the span
    `[pre, pre + w)` of piece `n` (`pre` the sum of the widths before it): that piece at `(p, k - pre)`. -/
theorem concatCols_ix2 {R C : Nat} (xs : List ((s : Shape) × (s.Idx → α)))
    (h : Shape.Concatenates (xs.map (·.1)) (Sh2 R C) 1)
    (ws : List Nat) (hws : xs.map (·.1) = ws.map (fun w => Sh2 R w))
    (n : Nat) (hn : n < xs.length) (w : Nat) (x : (Sh2 R w).Idx → α) (hx : xs[n] = ⟨Sh2 R w, x⟩)
    (pre : Nat) (hpre : (ws.take n).sum = pre)
    (p : Fin R) (k : Fin C) (hlo : pre ≤ k.val) (hhi : k.val < pre + w) :
    concatenate (Sh2 R C) 1 xs h (ix2 p k) = x (ix2 p ⟨k.val - pre, by omega⟩) :=
  concatenate_apply_piece 1 xs h (ix2 p k) n hn (Sh2 R w) x hx rfl pre
    ((widths_take_sum (C := C) xs ws hws n).trans hpre) (ix2 p ⟨k.val - pre, by omega⟩)
    (fun b hb => match b, hb with
      | ⟨0, _⟩, _ => rfl
      | ⟨1, _⟩, hb => absurd rfl hb)
    (by show pre + (k.val - pre) = k.val; omega)

end Cert.Lib.Rowwise

end
-- ==== Proof.KernelWinRead.lean ====
/-
  What the kernel's sixteen input blocks hold at an index, in terms of the argument arrays — and so what the network's
  inputs at row `p` of grid point `t` are: those of row `4096·t + p` of the specification.

  A weight block read at `(k, j)` is the weight argument at `(j, k)` (the host transposed it; the cut to leading
  columns keeps `k`; the conversion to bf16 is the identity). A separated column read at `(0, j)` is the weight
  argument at `(j, 12)`, respectively `(j, 32)`; a bias read at `(0, j)` is the bias argument at `j`.
-/
import proofs.«179178_j74294344286850_2_alg».proof.Proof.KernelWinBlocks
import proofs.«179178_j74294344286850_2_alg».proof.Proof.KernelWinHost
import proofs.«179178_j74294344286850_2_alg».proof.Proof.LibRowwise

noncomputable section

namespace Cert.KernelWin

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ)

/-- An `[a, 1]` column cast to an `[a]` vector reads, at `i`, the column at row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The first perceptron's weights -/

theorem w2_apply (c : Dev nD) (t : Fin cfg0.N) (k : Fin 12) (j : Fin 64) :
    (iblk m c 2 t : Vec Ideal S12x64 .bf16) (ix2 k j) = cols 12 (by decide) (A2 m c) k j := by
  rw [whole2, host2]
  refine (truncf_apply (ψ := .bf16) _ Facts₀.bitsLt_bf16_f32 _).trans ?_
  refine (transpose_ix2_apply _ Facts₀.transposes_S64x12_S12x64_1_0 k j).trans ?_
  refine (Cert.Lib.Rowwise.slice_ix2 0 _ Facts₀.slices_S64x13_S64x12_0_0 j k (by have := k.isLt; omega)).trans ?_
  exact congrArg _ (congrArg (ix2 j) (Fin.ext (Nat.zero_add _)))

theorem w3_apply (c : Dev nD) (t : Fin cfg0.N) (j : Fin 64) :
    (iblk m c 3 t : Vec Ideal S1x64 .f32) (ix2 (0 : Fin 1) j) = col (12 : Fin 13) (A2 m c) j := by
  rw [whole3, host3]
  refine (shapeCast_a_1a_apply _ Facts₀.shapeCasts_S64_S1x64 0 j).trans ?_
  refine (shapeCast_a1_a_apply _ Facts₀.shapeCasts_S64x1_S64 j).trans ?_
  refine (Cert.Lib.Rowwise.slice_ix2 12 _ Facts₀.slices_S64x13_S64x1_0_12 j 0 (by decide)).trans ?_
  exact congrArg _ (congrArg (ix2 j) (Fin.ext rfl))

theorem w4_apply (c : Dev nD) (t : Fin cfg0.N) (j : Fin 64) :
    (iblk m c 4 t : Vec Ideal S1x64 .f32) (ix2 (0 : Fin 1) j) = vec (A3 m c) j := by
  rw [whole4, host4]
  exact shapeCast_a_1a_apply _ Facts₀.shapeCasts_S64_S1x64 0 j

theorem w5_apply (c : Dev nD) (t : Fin cfg0.N) (k : Fin 64) (j : Fin 64) :
    (iblk m c 5 t : Vec Ideal S64x64 .bf16) (ix2 k j) = cols 64 (by decide) (A4 m c) k j := by
  rw [whole5, host5]
  refine (truncf_apply (ψ := .bf16) _ Facts₀.bitsLt_bf16_f32 _).trans ?_
  refine (transpose_ix2_apply _ Facts₀.transposes_S64x64_S64x64_1_0 k j).trans ?_
  refine (Cert.Lib.Rowwise.slice_ix2 0 _ Facts₀.slices_S64x128_S64x64_0_0 j k (by have := k.isLt; omega)).trans ?_
  exact congrArg _ (congrArg (ix2 j) (Fin.ext (Nat.zero_add _)))

theorem w6_apply (c : Dev nD) (t : Fin cfg0.N) (j : Fin 64) :
    (iblk m c 6 t : Vec Ideal S1x64 .f32) (ix2 (0 : Fin 1) j) = vec (A5 m c) j := by
  rw [whole6, host6]
  exact shapeCast_a_1a_apply _ Facts₀.shapeCasts_S64_S1x64 0 j

theorem w7_apply (c : Dev nD) (t : Fin cfg0.N) (k : Fin 64) (j : Fin 32) :
    (iblk m c 7 t : Vec Ideal S64x32 .bf16) (ix2 k j) = cols 64 (by decide) (A6 m c) k j := by
  rw [whole7, host7]
  refine (truncf_apply (ψ := .bf16) _ Facts₀.bitsLt_bf16_f32 _).trans ?_
  refine (transpose_ix2_apply _ Facts₀.transposes_S32x64_S64x32_1_0 k j).trans ?_
  exact congrArg _ (congrArg (ix2 j) (Fin.ext rfl))

theorem w8_apply (c : Dev nD) (t : Fin cfg0.N) (j : Fin 32) :
    (iblk m c 8 t : Vec Ideal S1x32 .f32) (ix2 (0 : Fin 1) j) = vec (A7 m c) j := by
  rw [whole8, host8]
  exact shapeCast_a_1a_apply _ Facts₀.shapeCasts_S32_S1x32 0 j

/-! ## The second perceptron's weights -/

theorem w9_apply (c : Dev nD) (t : Fin cfg0.N) (k : Fin 32) (j : Fin 400) :
    (iblk m c 9 t : Vec Ideal S32x400 .bf16) (ix2 k j) = cols 32 (by decide) (A8 m c) k j := by
  rw [whole9, host9]
  refine (truncf_apply (ψ := .bf16) _ Facts₀.bitsLt_bf16_f32 _).trans ?_
  refine (transpose_ix2_apply _ Facts₀.transposes_S400x32_S32x400_1_0 k j).trans ?_
  refine (Cert.Lib.Rowwise.slice_ix2 0 _ Facts₀.slices_S400x65_S400x32_0_0 j k (by have := k.isLt; omega)).trans ?_
  exact congrArg _ (congrArg (ix2 j) (Fin.ext (Nat.zero_add _)))

theorem w10_apply (c : Dev nD) (t : Fin cfg0.N) (j : Fin 400) :
    (iblk m c 10 t : Vec Ideal S1x400 .f32) (ix2 (0 : Fin 1) j) = col (32 : Fin 65) (A8 m c) j := by
  rw [whole10, host10]
  refine (shapeCast_a_1a_apply _ Facts₀.shapeCasts_S400_S1x400 0 j).trans ?_
  refine (shapeCast_a1_a_apply _ Facts₀.shapeCasts_S400x1_S400 j).trans ?_
  refine (Cert.Lib.Rowwise.slice_ix2 32 _ Facts₀.slices_S400x65_S400x1_0_32 j 0 (by decide)).trans ?_
  exact congrArg _ (congrArg (ix2 j) (Fin.ext rfl))

theorem w11_apply (c : Dev nD) (t : Fin cfg0.N) (j : Fin 400) :
    (iblk m c 11 t : Vec Ideal S1x400 .f32) (ix2 (0 : Fin 1) j) = vec (A9 m c) j := by
  rw [whole11, host11]
  exact shapeCast_a_1a_apply _ Facts₀.shapeCasts_S400_S1x400 0 j

theorem w12_apply (c : Dev nD) (t : Fin cfg0.N) (k : Fin 400) (j : Fin 300) :
    (iblk m c 12 t : Vec Ideal S400x300 .bf16) (ix2 k j) = cols 400 (by decide) (A10 m c) k j := by
  rw [whole12, host12]
  refine (truncf_apply (ψ := .bf16) _ Facts₀.bitsLt_bf16_f32 _).trans ?_
  refine (transpose_ix2_apply _ Facts₀.transposes_S300x400_S400x300_1_0 k j).trans ?_
  exact congrArg _ (congrArg (ix2 j) (Fin.ext rfl))

theorem w13_apply (c : Dev nD) (t : Fin cfg0.N) (j : Fin 300) :
    (iblk m c 13 t : Vec Ideal S1x300 .f32) (ix2 (0 : Fin 1) j) = vec (A11 m c) j := by
  rw [whole13, host13]
  exact shapeCast_a_1a_apply _ Facts₀.shapeCasts_S300_S1x300 0 j

theorem w14_apply (c : Dev nD) (t : Fin cfg0.N) (k : Fin 300) (j : Fin 32) :
    (iblk m c 14 t : Vec Ideal S300x32 .bf16) (ix2 k j) = cols 300 (by decide) (A12 m c) k j := by
  rw [whole14, host14]
  refine (truncf_apply (ψ := .bf16) _ Facts₀.bitsLt_bf16_f32 _).trans ?_
  refine (transpose_ix2_apply _ Facts₀.transposes_S32x300_S300x32_1_0 k j).trans ?_
  exact congrArg _ (congrArg (ix2 j) (Fin.ext rfl))

theorem w15_apply (c : Dev nD) (t : Fin cfg0.N) (j : Fin 32) :
    (iblk m c 15 t : Vec Ideal S1x32 .f32) (ix2 (0 : Fin 1) j) = vec (A13 m c) j := by
  rw [whole15, host15]
  exact shapeCast_a_1a_apply _ Facts₀.shapeCasts_S32_S1x32 0 j

end Cert.KernelWin

end
-- ==== Proof.KernelValue.lean ====
/-
  The kernel's result array: `Spec.G` of the argument arrays.

  Grid point `t` writes back, for rows `4096·t … 4096·t + 4095` of the result, the network applied to the same rows
  of the state and action (the body's value at row `p`, with the blocks read as the argument arrays). The 64 blocks
  cover the result array — row `r` lies in block `r / 4096` —, so after the run the array is `Spec.G`.
-/
import proofs.«179178_j74294344286850_2_alg».proof.Proof.Gen.KernelIdeal.Value
import proofs.«179178_j74294344286850_2_alg».proof.Proof.KernelRow
import proofs.«179178_j74294344286850_2_alg».proof.Proof.KernelWinRead

noncomputable section

namespace Cert.KernelValue

open Idealize.ShloMosaic Idealize.ShloMosaic.TcCoe Idealize.SL.Sem Idealize.ShloMosaic.ValueIdx
open Cert.KernelIdeal Cert.KernelIdeal.Gen Cert.Spec Cert.KernelWin
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What point `t` writes back is block `t` of `Spec.G`. -/
theorem flushed_eq (c : Dev nD) (t : Fin cfg0.N) :
    (dats m 0 c).flushed 16 t
      = ((cfg0.win 16).blk t).view.read (Elt Ideal) (G (A0 m c) (A1 m c) (A2 m c) (A3 m c) (A4 m c) (A5 m c) (A6 m c) (A7 m c) (A8 m c) (A9 m c) (A10 m c) (A11 m c) (A12 m c) (A13 m c)) := by
  rw [Value.flushed16]
  unfold out0_16
  rw [View.canon_unit_zero hz]
  simp only [View.ld_unit_zero (S := S4096x12) hz, View.ld_unit_zero (S := S4096x1) hz, View.ld_unit_zero (S := S12x64) hz,
    View.ld_unit_zero (S := S1x64) hz, View.ld_unit_zero (S := S64x64) hz, View.ld_unit_zero (S := S64x32) hz,
    View.ld_unit_zero (S := S1x32) hz, View.ld_unit_zero (S := S32x400) hz, View.ld_unit_zero (S := S1x400) hz,
    View.ld_unit_zero (S := S400x300) hz, View.ld_unit_zero (S := S1x300) hz, View.ld_unit_zero (S := S300x32) hz]
  funext y
  obtain ⟨p, q, rfl⟩ : ∃ (p : Fin 4096) (q : Fin 32), y = ix2 p q := ⟨y 0, y 1, eq_ix2 y⟩
  have hN : cfg0.N = 64 := N_0
  have ht : t.val < 64 := hN ▸ t.isLt
  have hr : 4096 * t.val + p.val < 262144 := by have := p.isLt; omega
  have hemb : ((cfg0.win 16).blk t).view.emb (ix2 p q) = (ix2 (⟨4096 * t.val + p.val, hr⟩ : Fin 262144) q : S262144x32.Idx) := by
    funext a; apply Fin.ext
    obtain ⟨e0, e1⟩ := idx16 t
    match a with
    | ⟨0, _⟩ => show win0_16.index t (0 : Fin 2) * 4096 + 1 * p.val = 4096 * t.val + p.val; omega
    | ⟨1, _⟩ => show win0_16.index t (1 : Fin 2) * 32 + 1 * q.val = q.val; omega
  refine (Cert.KernelRow.body_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) p q).trans ?_
  show _ = G (A0 m c) (A1 m c) (A2 m c) (A3 m c) (A4 m c) (A5 m c) (A6 m c) (A7 m c) (A8 m c) (A9 m c) (A10 m c) (A11 m c) (A12 m c) (A13 m c) (((cfg0.win 16).blk t).view.emb (ix2 p q))
  rw [hemb]
  simp only [state_blk m c t p _ hr, action_blk m c t p hr, w2_apply m, w3_apply m, w4_apply m, w5_apply m, w6_apply m,
    w7_apply m, w8_apply m, w9_apply m, w10_apply m, w11_apply m, w12_apply m, w13_apply m, w14_apply m, w15_apply m]
  rfl

/-- Every index of the result array is in some point's block: row `r` in block `r / 4096`. -/
theorem cover (i : S262144x32.Idx) :
    ∃ t : Fin cfg0.N, (cfg0.win 16).flush t = true ∧ i ∈ ((cfg0.win 16).blk t).view.set := by
  have hi0 : (i 0).val < 262144 := (i 0).isLt
  have hi1 : (i 1).val < 32 := (i 1).isLt
  have hN : cfg0.N = 64 := N_0
  obtain ⟨t, ht⟩ : ∃ t : Fin cfg0.N, t.val = (i 0).val / 4096 := ⟨⟨(i 0).val / 4096, by rw [hN]; omega⟩, rfl⟩
  refine ⟨t, flush0_16 t, ?_⟩
  show i ∈ ((View.whole main_v27).slice (win0_16.rect t)).set
  rw [View.set_slice_whole, Rect.mem_set_unit]
  obtain ⟨e0, e1⟩ := idx16 t
  intro a
  match a with
  | ⟨0, _⟩ =>
    show win0_16.index t (0 : Fin 2) * 4096 ≤ (i 0).val ∧ (i 0).val < win0_16.index t (0 : Fin 2) * 4096 + 4096
    omega
  | ⟨1, _⟩ =>
    show win0_16.index t (1 : Fin 2) * 32 ≤ (i 1).val ∧ (i 1).val < win0_16.index t (1 : Fin 2) * 32 + 32
    omega

/-- The result array after the run. -/
theorem final (c : Dev nD) : (dats m 0 c).arrAt 16 cfg0.N = G (A0 m c) (A1 m c) (A2 m c) (A3 m c) (A4 m c) (A5 m c) (A6 m c) (A7 m c) (A8 m c) (A9 m c) (A10 m c) (A11 m c) (A12 m c) (A13 m c) :=
  (dats m 0 c).arrAt_eq_of_cover 16 (G (A0 m c) (A1 m c) (A2 m c) (A3 m c) (A4 m c) (A5 m c) (A6 m c) (A7 m c) (A8 m c) (A9 m c) (A10 m c) (A11 m c) (A12 m c) (A13 m c)) (fun t _ => flushed_eq m c t) cover

/-- The kernel's run: the result array ends at `Spec.G` of the arguments, the arguments unchanged. -/
theorem run : θ_run defs (onTc (τ := τ) (main (F := Ideal))) ⟨m, fun _ => 0, ρ⟩ fun r => ∀ c : Dev nD,
      r.2.mem ((c : Thread nD τ).loc main_v27) = G (A0 m c) (A1 m c) (A2 m c) (A3 m c) (A4 m c) (A5 m c) (A6 m c) (A7 m c) (A8 m c) (A9 m c) (A10 m c) (A11 m c) (A12 m c) (A13 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelValue

end
-- ==== Proof.RefRow.lean ====
/-
  The reference program, read one row at a time.

  The reference joins arrays along the columns where the specification keeps them apart:

  * row `r` of `[state, action]` (13 wide) times the first layer's matrix is a sum of thirteen terms: the twelve
    state terms and the action's term `u · w[j, 12]`;
  * the hyperbolic tangent of `[unit row, 64 zeros]` times the second layer's matrix is a sum of 128 terms, of which
    the last 64 are `tanh 0 · w = 0`;
  * `[message, action, 32 zeros]` times the fourth layer's matrix is a sum of 65 terms: the first 32, the action's
    term, and 32 terms `0 · w = 0`.

  Each stage of the reference is read at `(r, j)` from the stage before it; a row sum starts from the zero word,
  which is the extended real `0`. The last stage is `Spec.row`.
-/
import proofs.«179178_j74294344286850_2_alg».proof.Proof.Gen.ReferenceIdeal.Read
import proofs.«179178_j74294344286850_2_alg».proof.Proof.Spec
import proofs.«179178_j74294344286850_2_alg».proof.Proof.LibRowwise

noncomputable section

namespace Cert.RefRow

open Idealize.ShloMosaic Idealize.ShloMosaic.ValueIdx Cert.ReferenceIdeal Cert.ReferenceIdeal.Gen Cert.ReferenceIdeal.Read

variable (a0 : (⟨S262144x12, .f32⟩ : BufTy).Contents (Elt Ideal)) (a1 : (⟨S262144x1, .f32⟩ : BufTy).Contents (Elt Ideal))
  (a2 : (⟨S64x13, .f32⟩ : BufTy).Contents (Elt Ideal)) (a3 : (⟨S64, .f32⟩ : BufTy).Contents (Elt Ideal))

/-- A sum over thirteen terms is the sum of the first twelve plus the last. -/
theorem sum13 (f : Fin 13 → EReal) : ∑ k, f k = ∑ k : Fin 12, f (k.castLE (by decide)) + f 12 :=
  Fin.sum_univ_castSucc f

theorem v1_lo (r : Fin 262144) (k : Fin 12) :
    val_main_v1 (F := Ideal) a0 a1 (ix2 r (k.castLE (by decide) : Fin 13)) = a0 (ix2 r k) := by
  unfold val_main_v1
  exact Cert.Lib.Rowwise.concatCols_ix2 (R := 262144) (C := 13) [⟨S262144x12, a0⟩, ⟨S262144x1, a1⟩]
    concatenates_S262144x12_S262144x1_S262144x13_d1 [12, 1] rfl 0 (show 0 < 2 by decide) 12 a0 rfl 0 rfl r (k.castLE (by decide))
    (Nat.zero_le _) (by have := k.isLt; show k.val < 0 + 12; omega)

theorem v1_hi (r : Fin 262144) :
    val_main_v1 (F := Ideal) a0 a1 (ix2 r (12 : Fin 13)) = a1 (ix2 r (0 : Fin 1)) := by
  unfold val_main_v1
  exact Cert.Lib.Rowwise.concatCols_ix2 (R := 262144) (C := 13) [⟨S262144x12, a0⟩, ⟨S262144x1, a1⟩]
    concatenates_S262144x12_S262144x1_S262144x13_d1 [12, 1] rfl 1 (show 1 < 2 by decide) 1 a1 rfl 12 rfl r (12 : Fin 13)
    (by decide) (by decide)

/-- The first layer's product, the thirteenth column split off. -/
theorem v3_row (r : Fin 262144) (j : Fin 64) :
    val_main_v3 (F := Ideal) a0 a1 a2 (ix2 r j)
      = Net.mm (fun k => a0 (ix2 r k)) (Spec.cols (N := 64) (W := 13) 12 (by decide) a2) j
        + a1 (ix2 r (0 : Fin 1)) * Spec.col (N := 64) (12 : Fin 13) a2 j := by
  refine (val_main_v3_apply a0 a1 a2 (ix2 r j)).trans ?_
  refine (Finset.sum_congr rfl fun k _ => ?_ :
    _ = ∑ k : Fin 13, val_main_v1 (F := Ideal) a0 a1 (ix2 r k) * a2 (ix2 j k)).trans ?_
  · have el : lidx_main_v3 (ix2 r j) k = ix2 r k :=
      funext fun a => Fin.ext (by match a with | ⟨0, _⟩ => rfl | ⟨1, _⟩ => rfl)
    have er : idx_main_v2 (ridx_main_v3 (ix2 r j) k) = ix2 j k :=
      funext fun a => Fin.ext (by match a with | ⟨0, _⟩ => rfl | ⟨1, _⟩ => rfl)
    rw [el, val_main_v2_apply, er]
  refine (sum13 _).trans ?_
  refine congrArg₂ (· + ·) (Finset.sum_congr rfl fun k _ => ?_) ?_
  · exact congrArg (· * _) (v1_lo a0 a1 r k)
  · exact congrArg (· * _) (v1_hi a0 a1 r)

/-- A bias, spread over the rows. -/
theorem v5_row (r : Fin 262144) (j : Fin 64) : val_main_v5 (F := Ideal) a3 (ix2 r j) = a3 (ix1 j) :=
  (val_main_v5_apply a3 _).trans ((val_main_v4_apply a3 _).trans (congrArg a3
    (funext fun a => Fin.ext (by match a with | ⟨0, _⟩ => rfl))))

/-- The first layer before its normalisation. -/
def pre₁ (r : Fin 262144) : Fin 64 → EReal := fun i =>
  Net.mm (fun k => a0 (ix2 r k)) (Spec.cols (N := 64) (W := 13) 12 (by decide) a2) i
    + a1 (ix2 r (0 : Fin 1)) * Spec.col (N := 64) (12 : Fin 13) a2 i + Spec.vec a3 i

theorem v6_row (r : Fin 262144) (j : Fin 64) :
    val_main_v6 (F := Ideal) a0 a1 a2 a3 (ix2 r j) = pre₁ a0 a1 a2 a3 r j := by
  rw [val_main_v6_apply, Ideal.addf_def, v3_row, v5_row]
  rfl

theorem v8_row (r : Fin 262144) :
    val_main_v8 (F := Ideal) a0 a1 a2 a3 (ix1 r) = ∑ k : Fin 64, pre₁ a0 a1 a2 a3 r k * pre₁ a0 a1 a2 a3 r k := by
  refine (val_main_v8_apply a0 a1 a2 a3 (ix1 r)).trans ?_
  rw [val_main_cst_0_apply, Ideal.ofBits_def, Ideal.ofBits_zero_f32, zero_add]
  refine Finset.sum_congr rfl fun k _ => ?_
  have e : idx_main_v8 (ix1 r) k = ix2 r k :=
    funext fun a => Fin.ext (by match a with | ⟨0, _⟩ => rfl | ⟨1, _⟩ => rfl)
  rw [e, val_main_v7_apply, Ideal.mulf_def, v6_row]

theorem v13_row (r : Fin 262144) (j : Fin 64) :
    val_main_v13 (F := Ideal) a0 a1 a2 a3 (ix2 r j)
      = max (Ideal.sqrt (∑ k : Fin 64, pre₁ a0 a1 a2 a3 r k * pre₁ a0 a1 a2 a3 r k)) Net.floor := by
  have e : idx_main_v13 (ix2 r j) = ix2 r (0 : Fin 1) :=
    funext fun a => Fin.ext (by match a with | ⟨0, _⟩ => rfl | ⟨1, _⟩ => rfl)
  have e9 : idx_main_v9 (ix2 r (0 : Fin 1)) = ix1 r :=
    funext fun a => Fin.ext (by match a with | ⟨0, _⟩ => rfl)
  rw [val_main_v13_apply, e, val_main_v12_apply, Ideal.maximumf_def, val_main_v10_apply, Ideal.hostUnary_sqrt_def,
    val_main_v9_apply, e9, v8_row, val_main_v11_apply, val_main_cst_1_apply]
  rfl

/-- The first layer, scaled to unit length. -/
theorem v14_row (r : Fin 262144) (j : Fin 64) :
    val_main_v14 (F := Ideal) a0 a1 a2 a3 (ix2 r j) = Net.unit Net.floor (pre₁ a0 a1 a2 a3 r) j := by
  rw [val_main_v14_apply, Ideal.hostDivf_def, v6_row, v13_row]
  rfl

variable (a4 : (⟨S64x128, .f32⟩ : BufTy).Contents (Elt Ideal)) (a5 : (⟨S64, .f32⟩ : BufTy).Contents (Elt Ideal))
  (a6 : (⟨S32x64, .f32⟩ : BufTy).Contents (Elt Ideal))

/-- A sum over 128 terms is the sum of the first 64 plus the sum of the last 64. -/
theorem sum128 (f : Fin 128 → EReal) :
    ∑ k, f k = ∑ k : Fin 64, f (k.castLE (by decide)) + ∑ k : Fin 64, f (Fin.natAdd 64 k) :=
  Fin.sum_univ_add (a := 64) (b := 64) f

theorem tanh_zero : Ideal.tanh 0 = 0 := by
  have h : Ideal.tanh ((0 : ℝ) : EReal) = ((Real.tanh 0 : ℝ) : EReal) := rfl
  rw [Real.tanh_zero] at h
  exact h

theorem v15_lo (r : Fin 262144) (k : Fin 64) :
    val_main_v15 (F := Ideal) a0 a1 a2 a3 (ix2 r (k.castLE (by decide) : Fin 128))
      = val_main_v14 (F := Ideal) a0 a1 a2 a3 (ix2 r k) := by
  unfold val_main_v15
  generalize val_main_v14 (F := Ideal) a0 a1 a2 a3 = y
  exact Cert.Lib.Rowwise.concatCols_ix2 (R := 262144) (C := 128) [⟨S262144x64, y⟩, ⟨S262144x64, val_main_v0 (F := Ideal)⟩]
    concatenates_S262144x64_S262144x64_S262144x128_d1 [64, 64] rfl 0 (show 0 < 2 by decide) 64 y rfl 0 rfl r (k.castLE (by decide))
    (Nat.zero_le _) (by have := k.isLt; show k.val < 0 + 64; omega)

theorem v15_hi (r : Fin 262144) (k : Fin 64) :
    val_main_v15 (F := Ideal) a0 a1 a2 a3 (ix2 r (Fin.natAdd 64 k : Fin 128)) = 0 := by
  unfold val_main_v15
  generalize val_main_v14 (F := Ideal) a0 a1 a2 a3 = y
  refine (Cert.Lib.Rowwise.concatCols_ix2 (R := 262144) (C := 128) [⟨S262144x64, y⟩, ⟨S262144x64, val_main_v0 (F := Ideal)⟩]
    concatenates_S262144x64_S262144x64_S262144x128_d1 [64, 64] rfl 1 (show 1 < 2 by decide) 64 (val_main_v0 (F := Ideal)) rfl 64 rfl r
    (Fin.natAdd 64 k) (by show 64 ≤ 64 + k.val; omega) (by have := k.isLt; show 64 + k.val < 64 + 64; omega)).trans ?_
  rw [val_main_v0_apply, val_main_cst_apply, Ideal.ofBits_def, Ideal.ofBits_zero_f32]

/-- The second layer's product: the 64 columns that meet the zero half do not count. -/
theorem v18_row (r : Fin 262144) (j : Fin 64) :
    val_main_v18 (F := Ideal) a0 a1 a2 a3 a4 (ix2 r j)
      = Net.mm (fun k => Ideal.tanh (Net.unit Net.floor (pre₁ a0 a1 a2 a3 r) k))
          (Spec.cols (N := 64) (W := 128) 64 (by decide) a4) j := by
  refine (val_main_v18_apply a0 a1 a2 a3 a4 (ix2 r j)).trans ?_
  refine (Finset.sum_congr rfl fun k _ => ?_ :
    _ = ∑ k : Fin 128, Ideal.tanh (val_main_v15 (F := Ideal) a0 a1 a2 a3 (ix2 r k)) * a4 (ix2 j k)).trans ?_
  · have el : lidx_main_v18 (ix2 r j) k = ix2 r k :=
      funext fun a => Fin.ext (by match a with | ⟨0, _⟩ => rfl | ⟨1, _⟩ => rfl)
    have er : idx_main_v17 (ridx_main_v18 (ix2 r j) k) = ix2 j k :=
      funext fun a => Fin.ext (by match a with | ⟨0, _⟩ => rfl | ⟨1, _⟩ => rfl)
    rw [el, val_main_v17_apply, er, val_main_v16_apply, Ideal.hostUnary_tanh_def]
  refine (sum128 _).trans ?_
  have hz : ∑ k : Fin 64, Ideal.tanh (val_main_v15 (F := Ideal) a0 a1 a2 a3 (ix2 r (Fin.natAdd 64 k : Fin 128)))
      * a4 (ix2 j (Fin.natAdd 64 k : Fin 128)) = 0 :=
    Finset.sum_eq_zero fun k _ => by rw [v15_hi, tanh_zero, zero_mul]
  rw [hz, add_zero]
  refine Finset.sum_congr rfl fun k _ => ?_
  rw [v15_lo, v14_row]
  rfl

theorem v20_row (r : Fin 262144) (j : Fin 64) : val_main_v20 (F := Ideal) a5 (ix2 r j) = a5 (ix1 j) :=
  (val_main_v20_apply a5 _).trans ((val_main_v19_apply a5 _).trans (congrArg a5
    (funext fun a => Fin.ext (by match a with | ⟨0, _⟩ => rfl))))

/-- The second layer. -/
def t₂ (r : Fin 262144) : Fin 64 → EReal := fun j =>
  Ideal.tanh (Net.mm (fun k => Ideal.tanh (Net.unit Net.floor (pre₁ a0 a1 a2 a3 r) k))
    (Spec.cols (N := 64) (W := 128) 64 (by decide) a4) j + Spec.vec a5 j)

theorem v22_row (r : Fin 262144) (j : Fin 64) :
    val_main_v22 (F := Ideal) a0 a1 a2 a3 a4 a5 (ix2 r j) = t₂ a0 a1 a2 a3 a4 a5 r j := by
  rw [val_main_v22_apply, Ideal.hostUnary_tanh_def, val_main_v21_apply, Ideal.addf_def, v18_row, v20_row]
  rfl

/-- The first perceptron up to its last product. -/
def upRow (r : Fin 262144) : Fin 32 → EReal :=
  Net.up (fun k => a0 (ix2 r k)) (a1 (ix2 r (0 : Fin 1)))
    (Spec.cols (N := 64) (W := 13) 12 (by decide) a2) (Spec.col (N := 64) (12 : Fin 13) a2) (Spec.vec a3)
    (Spec.cols (N := 64) (W := 128) 64 (by decide) a4) (Spec.vec a5) (Spec.cols (N := 32) (W := 64) 64 (by decide) a6)

theorem v24_row (r : Fin 262144) (q : Fin 32) :
    val_main_v24 (F := Ideal) a0 a1 a2 a3 a4 a5 a6 (ix2 r q) = upRow a0 a1 a2 a3 a4 a5 a6 r q := by
  refine (val_main_v24_apply a0 a1 a2 a3 a4 a5 a6 (ix2 r q)).trans ?_
  refine (Finset.sum_congr rfl fun k _ => ?_ :
    _ = ∑ k : Fin 64, t₂ a0 a1 a2 a3 a4 a5 r k * a6 (ix2 q k)).trans ?_
  · have el : lidx_main_v24 (ix2 r q) k = ix2 r k :=
      funext fun a => Fin.ext (by match a with | ⟨0, _⟩ => rfl | ⟨1, _⟩ => rfl)
    have er : idx_main_v23 (ridx_main_v24 (ix2 r q) k) = ix2 q k :=
      funext fun a => Fin.ext (by match a with | ⟨0, _⟩ => rfl | ⟨1, _⟩ => rfl)
    rw [el, val_main_v23_apply, er, v22_row]
  rfl

variable (a7 : (⟨S32, .f32⟩ : BufTy).Contents (Elt Ideal))

theorem v26_row (r : Fin 262144) (q : Fin 32) : val_main_v26 (F := Ideal) a7 (ix2 r q) = a7 (ix1 q) :=
  (val_main_v26_apply a7 _).trans ((val_main_v25_apply a7 _).trans (congrArg a7
    (funext fun a => Fin.ext (by match a with | ⟨0, _⟩ => rfl))))

/-- The first perceptron's last layer before its normalisation. -/
def msgPre (r : Fin 262144) : Fin 32 → EReal := fun i => upRow a0 a1 a2 a3 a4 a5 a6 r i + Spec.vec a7 i

theorem v27_row (r : Fin 262144) (q : Fin 32) :
    val_main_v27 (F := Ideal) a0 a1 a2 a3 a4 a5 a6 a7 (ix2 r q) = msgPre a0 a1 a2 a3 a4 a5 a6 a7 r q := by
  rw [val_main_v27_apply, Ideal.addf_def, v24_row, v26_row]
  rfl

theorem v29_row (r : Fin 262144) :
    val_main_v29 (F := Ideal) a0 a1 a2 a3 a4 a5 a6 a7 (ix1 r)
      = ∑ k : Fin 32, msgPre a0 a1 a2 a3 a4 a5 a6 a7 r k * msgPre a0 a1 a2 a3 a4 a5 a6 a7 r k := by
  refine (val_main_v29_apply a0 a1 a2 a3 a4 a5 a6 a7 (ix1 r)).trans ?_
  rw [val_main_cst_2_apply, Ideal.ofBits_def, Ideal.ofBits_zero_f32, zero_add]
  refine Finset.sum_congr rfl fun k _ => ?_
  have e : idx_main_v29 (ix1 r) k = ix2 r k :=
    funext fun a => Fin.ext (by match a with | ⟨0, _⟩ => rfl | ⟨1, _⟩ => rfl)
  rw [e, val_main_v28_apply, Ideal.mulf_def, v27_row]

theorem v34_row (r : Fin 262144) (q : Fin 32) :
    val_main_v34 (F := Ideal) a0 a1 a2 a3 a4 a5 a6 a7 (ix2 r q)
      = max (Ideal.sqrt (∑ k : Fin 32, msgPre a0 a1 a2 a3 a4 a5 a6 a7 r k * msgPre a0 a1 a2 a3 a4 a5 a6 a7 r k))
          Net.floor := by
  have e : idx_main_v34 (ix2 r q) = ix2 r (0 : Fin 1) :=
    funext fun a => Fin.ext (by match a with | ⟨0, _⟩ => rfl | ⟨1, _⟩ => rfl)
  have e9 : idx_main_v30 (ix2 r (0 : Fin 1)) = ix1 r :=
    funext fun a => Fin.ext (by match a with | ⟨0, _⟩ => rfl)
  rw [val_main_v34_apply, e, val_main_v33_apply, Ideal.maximumf_def, val_main_v31_apply, Ideal.hostUnary_sqrt_def,
    val_main_v30_apply, e9, v29_row, val_main_v32_apply, val_main_cst_3_apply]
  rfl

/-- The message, scaled to unit length. -/
theorem v35_row (r : Fin 262144) (q : Fin 32) :
    val_main_v35 (F := Ideal) a0 a1 a2 a3 a4 a5 a6 a7 (ix2 r q)
      = Net.unit Net.floor (msgPre a0 a1 a2 a3 a4 a5 a6 a7 r) q := by
  rw [val_main_v35_apply, Ideal.hostDivf_def, v27_row, v34_row]
  rfl

variable (a8 : (⟨S400x65, .f32⟩ : BufTy).Contents (Elt Ideal)) (a9 : (⟨S400, .f32⟩ : BufTy).Contents (Elt Ideal))

/-- A sum over 65 terms: the first 32, the thirty-third, the last 32. -/
theorem sum65 (f : Fin 65 → EReal) :
    ∑ k, f k = ∑ k : Fin 32, f (k.castLE (by decide)) + f 32 + ∑ k : Fin 32, f (Fin.natAdd 33 k) :=
  (Fin.sum_univ_add (a := 33) (b := 32) f).trans
    (congrArg (· + ∑ k : Fin 32, f (Fin.natAdd 33 k)) (Fin.sum_univ_castSucc (n := 32) fun k : Fin 33 => f (Fin.castAdd 32 k)))

theorem v37_lo (r : Fin 262144) (k : Fin 32) :
    val_main_v37 (F := Ideal) a0 a1 a2 a3 a4 a5 a6 a7 (ix2 r (k.castLE (by decide) : Fin 65))
      = val_main_v35 (F := Ideal) a0 a1 a2 a3 a4 a5 a6 a7 (ix2 r k) := by
  unfold val_main_v37
  generalize val_main_v35 (F := Ideal) a0 a1 a2 a3 a4 a5 a6 a7 = y
  exact Cert.Lib.Rowwise.concatCols_ix2 (R := 262144) (C := 65)
    [⟨S262144x32, y⟩, ⟨S262144x1, a1⟩, ⟨S262144x32, val_main_v36 (F := Ideal)⟩]
    concatenates_S262144x32_S262144x1_S262144x32_S262144x65_d1 [32, 1, 32] rfl 0 (show 0 < 3 by decide) 32 y rfl 0 rfl r
    (k.castLE (by decide)) (Nat.zero_le _) (by have := k.isLt; show k.val < 0 + 32; omega)

theorem v37_mid (r : Fin 262144) :
    val_main_v37 (F := Ideal) a0 a1 a2 a3 a4 a5 a6 a7 (ix2 r (32 : Fin 65)) = a1 (ix2 r (0 : Fin 1)) := by
  unfold val_main_v37
  generalize val_main_v35 (F := Ideal) a0 a1 a2 a3 a4 a5 a6 a7 = y
  exact Cert.Lib.Rowwise.concatCols_ix2 (R := 262144) (C := 65)
    [⟨S262144x32, y⟩, ⟨S262144x1, a1⟩, ⟨S262144x32, val_main_v36 (F := Ideal)⟩]
    concatenates_S262144x32_S262144x1_S262144x32_S262144x65_d1 [32, 1, 32] rfl 1 (show 1 < 3 by decide) 1 a1 rfl 32 rfl r
    (32 : Fin 65) (by decide) (by decide)

theorem v37_hi (r : Fin 262144) (k : Fin 32) :
    val_main_v37 (F := Ideal) a0 a1 a2 a3 a4 a5 a6 a7 (ix2 r (Fin.natAdd 33 k : Fin 65)) = 0 := by
  unfold val_main_v37
  generalize val_main_v35 (F := Ideal) a0 a1 a2 a3 a4 a5 a6 a7 = y
  refine (Cert.Lib.Rowwise.concatCols_ix2 (R := 262144) (C := 65)
    [⟨S262144x32, y⟩, ⟨S262144x1, a1⟩, ⟨S262144x32, val_main_v36 (F := Ideal)⟩]
    concatenates_S262144x32_S262144x1_S262144x32_S262144x65_d1 [32, 1, 32] rfl 2 (show 2 < 3 by decide) 32
    (val_main_v36 (F := Ideal)) rfl 33 rfl r (Fin.natAdd 33 k) (by show 33 ≤ 33 + k.val; omega)
    (by have := k.isLt; show 33 + k.val < 33 + 32; omega)).trans ?_
  rw [val_main_v36_apply, val_main_cst_4_apply, Ideal.ofBits_def, Ideal.ofBits_zero_f32]

/-- The fourth layer's product: the thirty-third column split off, the 32 columns that meet zeros dropped. -/
theorem v39_row (r : Fin 262144) (j : Fin 400) :
    val_main_v39 (F := Ideal) a0 a1 a2 a3 a4 a5 a6 a7 a8 (ix2 r j)
      = Net.mm (Net.unit Net.floor (msgPre a0 a1 a2 a3 a4 a5 a6 a7 r)) (Spec.cols (N := 400) (W := 65) 32 (by decide) a8) j
        + a1 (ix2 r (0 : Fin 1)) * Spec.col (N := 400) (32 : Fin 65) a8 j := by
  refine (val_main_v39_apply a0 a1 a2 a3 a4 a5 a6 a7 a8 (ix2 r j)).trans ?_
  refine (Finset.sum_congr rfl fun k _ => ?_ :
    _ = ∑ k : Fin 65, val_main_v37 (F := Ideal) a0 a1 a2 a3 a4 a5 a6 a7 (ix2 r k) * a8 (ix2 j k)).trans ?_
  · have el : lidx_main_v39 (ix2 r j) k = ix2 r k :=
      funext fun a => Fin.ext (by match a with | ⟨0, _⟩ => rfl | ⟨1, _⟩ => rfl)
    have er : idx_main_v38 (ridx_main_v39 (ix2 r j) k) = ix2 j k :=
      funext fun a => Fin.ext (by match a with | ⟨0, _⟩ => rfl | ⟨1, _⟩ => rfl)
    rw [el, val_main_v38_apply, er]
  refine (sum65 _).trans ?_
  have hz : ∑ k : Fin 32, val_main_v37 (F := Ideal) a0 a1 a2 a3 a4 a5 a6 a7 (ix2 r (Fin.natAdd 33 k : Fin 65))
      * a8 (ix2 j (Fin.natAdd 33 k : Fin 65)) = 0 :=
    Finset.sum_eq_zero fun k _ => by rw [v37_hi, zero_mul]
  rw [hz, add_zero]
  refine congrArg₂ (· + ·) (Finset.sum_congr rfl fun k _ => ?_) ?_
  · rw [v37_lo, v35_row]
    rfl
  · exact congrArg (· * _) (v37_mid a0 a1 a2 a3 a4 a5 a6 a7 r)

theorem v41_row (r : Fin 262144) (j : Fin 400) : val_main_v41 (F := Ideal) a9 (ix2 r j) = a9 (ix1 j) :=
  (val_main_v41_apply a9 _).trans ((val_main_v40_apply a9 _).trans (congrArg a9
    (funext fun a => Fin.ext (by match a with | ⟨0, _⟩ => rfl))))

/-- The second perceptron's first hidden layer. -/
def h₁ (r : Fin 262144) : Fin 400 → EReal := fun k =>
  max (Net.mm (Net.unit Net.floor (msgPre a0 a1 a2 a3 a4 a5 a6 a7 r)) (Spec.cols (N := 400) (W := 65) 32 (by decide) a8) k
    + a1 (ix2 r (0 : Fin 1)) * Spec.col (N := 400) (32 : Fin 65) a8 k + Spec.vec a9 k) Net.zero

theorem v43_row (r : Fin 262144) (j : Fin 400) :
    val_main_v43 (F := Ideal) a0 a1 a2 a3 a4 a5 a6 a7 a8 a9 (ix2 r j) = h₁ a0 a1 a2 a3 a4 a5 a6 a7 a8 a9 r j := by
  rw [val_main_v43_apply, Ideal.maximumf_def, val_main_v42_apply, Ideal.addf_def, v39_row, v41_row,
    val_main_call0_v0_apply, val_main_call0_cst_apply]
  rfl

variable (a10 : (⟨S300x400, .f32⟩ : BufTy).Contents (Elt Ideal)) (a11 : (⟨S300, .f32⟩ : BufTy).Contents (Elt Ideal))
  (a12 : (⟨S32x300, .f32⟩ : BufTy).Contents (Elt Ideal)) (a13 : (⟨S32, .f32⟩ : BufTy).Contents (Elt Ideal))

theorem v45_row (r : Fin 262144) (j : Fin 300) :
    val_main_v45 (F := Ideal) a0 a1 a2 a3 a4 a5 a6 a7 a8 a9 a10 (ix2 r j)
      = Net.mm (h₁ a0 a1 a2 a3 a4 a5 a6 a7 a8 a9 r) (Spec.cols (N := 300) (W := 400) 400 (by decide) a10) j := by
  refine (val_main_v45_apply a0 a1 a2 a3 a4 a5 a6 a7 a8 a9 a10 (ix2 r j)).trans ?_
  refine (Finset.sum_congr rfl fun k _ => ?_ :
    _ = ∑ k : Fin 400, h₁ a0 a1 a2 a3 a4 a5 a6 a7 a8 a9 r k * a10 (ix2 j k)).trans ?_
  · have el : lidx_main_v45 (ix2 r j) k = ix2 r k :=
      funext fun a => Fin.ext (by match a with | ⟨0, _⟩ => rfl | ⟨1, _⟩ => rfl)
    have er : idx_main_v44 (ridx_main_v45 (ix2 r j) k) = ix2 j k :=
      funext fun a => Fin.ext (by match a with | ⟨0, _⟩ => rfl | ⟨1, _⟩ => rfl)
    rw [el, val_main_v44_apply, er, v43_row]
  rfl

theorem v47_row (r : Fin 262144) (j : Fin 300) : val_main_v47 (F := Ideal) a11 (ix2 r j) = a11 (ix1 j) :=
  (val_main_v47_apply a11 _).trans ((val_main_v46_apply a11 _).trans (congrArg a11
    (funext fun a => Fin.ext (by match a with | ⟨0, _⟩ => rfl))))

/-- The second perceptron's second hidden layer. -/
def midRow (r : Fin 262144) : Fin 300 → EReal :=
  Net.mid (a1 (ix2 r (0 : Fin 1))) (upRow a0 a1 a2 a3 a4 a5 a6 r) (Spec.vec a7)
    (Spec.cols (N := 400) (W := 65) 32 (by decide) a8) (Spec.col (N := 400) (32 : Fin 65) a8) (Spec.vec a9)
    (Spec.cols (N := 300) (W := 400) 400 (by decide) a10) (Spec.vec a11)

theorem v49_row (r : Fin 262144) (j : Fin 300) :
    val_main_v49 (F := Ideal) a0 a1 a2 a3 a4 a5 a6 a7 a8 a9 a10 a11 (ix2 r j)
      = midRow a0 a1 a2 a3 a4 a5 a6 a7 a8 a9 a10 a11 r j := by
  rw [val_main_v49_apply, Ideal.maximumf_def, val_main_v48_apply, Ideal.addf_def, v45_row, v47_row,
    val_main_call1_v0_apply, val_main_call1_cst_apply]
  rfl

theorem v51_row (r : Fin 262144) (q : Fin 32) :
    val_main_v51 (F := Ideal) a0 a1 a2 a3 a4 a5 a6 a7 a8 a9 a10 a11 a12 (ix2 r q)
      = Net.mm (midRow a0 a1 a2 a3 a4 a5 a6 a7 a8 a9 a10 a11 r) (Spec.cols (N := 32) (W := 300) 300 (by decide) a12) q := by
  refine (val_main_v51_apply a0 a1 a2 a3 a4 a5 a6 a7 a8 a9 a10 a11 a12 (ix2 r q)).trans ?_
  refine (Finset.sum_congr rfl fun k _ => ?_ :
    _ = ∑ k : Fin 300, midRow a0 a1 a2 a3 a4 a5 a6 a7 a8 a9 a10 a11 r k * a12 (ix2 q k)).trans ?_
  · have el : lidx_main_v51 (ix2 r q) k = ix2 r k :=
      funext fun a => Fin.ext (by match a with | ⟨0, _⟩ => rfl | ⟨1, _⟩ => rfl)
    have er : idx_main_v50 (ridx_main_v51 (ix2 r q) k) = ix2 q k :=
      funext fun a => Fin.ext (by match a with | ⟨0, _⟩ => rfl | ⟨1, _⟩ => rfl)
    rw [el, val_main_v50_apply, er, v49_row]
  rfl

theorem v53_row (r : Fin 262144) (q : Fin 32) : val_main_v53 (F := Ideal) a13 (ix2 r q) = a13 (ix1 q) :=
  (val_main_v53_apply a13 _).trans ((val_main_v52_apply a13 _).trans (congrArg a13
    (funext fun a => Fin.ext (by match a with | ⟨0, _⟩ => rfl))))

/-- The reference's result at row `r`, column `q`, is the network on row `r`. -/
theorem reference_apply (r : Fin 262144) (q : Fin 32) :
    val_main_v54 (F := Ideal) a0 a1 a2 a3 a4 a5 a6 a7 a8 a9 a10 a11 a12 a13 (ix2 r q)
      = Cert.Spec.row a0 a1 a2 a3 a4 a5 a6 a7 a8 a9 a10 a11 a12 a13 r q := by
  rw [val_main_v54_apply, Ideal.addf_def, v51_row, v53_row]
  rfl

end Cert.RefRow

end
-- ==== Proof.lean ====
/-
  A Pallas kernel that pushes each of 262144 rows (twelve state values, one action value) through two small
  perceptrons — linear layer, scaling to unit length, tanh, linear, tanh, linear, scaling to unit length; then linear,
  rectifier, linear, rectifier, linear — against the same network written with jnp.

  The two programs differ in how they feed the layers. The reference joins `[state, action]` (13 columns),
  `[unit row, 64 zeros]` (128) and `[message, action, 32 zeros]` (65) and multiplies by the full weight matrices; the
  kernel multiplies by the leading columns only, adds the action's term `u · w[·, 12]` (resp. `u · w[·, 32]`) as an outer
  product, and never forms the zero columns. On the extended reals these agree: a sum over the joined axis splits into
  the parts' sums, `tanh 0 = 0`, and `0 · x = 0` for every extended real `x`, so no entry needs to be finite. The
  kernel's conversions to bf16 before each product are the identity on the extended reals, a product into a zero
  accumulator is the plain sum of products, and the kernel's and the host's sum, square root, quotient and tanh are
  the same functions.

  The result of both programs is `Spec.G` of the fourteen argument arrays: `KernelValue.run` (the kernel's 64 row
  blocks, each the network on its rows, cover the result) and `RefRow.reference_apply` (the reference read stage by
  stage at a row).
-/
import proofs.«179178_j74294344286850_2_alg».proof.Defs
import proofs.«179178_j74294344286850_2_alg».proof.Proof.Gen.Kernel
import proofs.«179178_j74294344286850_2_alg».proof.Proof.Gen.Kernel.Skeleton
import proofs.«179178_j74294344286850_2_alg».proof.Proof.Gen.Kernel.Launch
import proofs.«179178_j74294344286850_2_alg».proof.Proof.Gen.Kernel.Points
import proofs.«179178_j74294344286850_2_alg».proof.Proof.Gen.Kernel.Frame
import proofs.«179178_j74294344286850_2_alg».proof.Proof.Gen.KernelIdeal
import proofs.«179178_j74294344286850_2_alg».proof.Proof.Gen.KernelIdeal.Skeleton
import proofs.«179178_j74294344286850_2_alg».proof.Proof.Gen.KernelIdeal.Launch
import proofs.«179178_j74294344286850_2_alg».proof.Proof.Gen.KernelIdeal.Points
import proofs.«179178_j74294344286850_2_alg».proof.Proof.Gen.KernelIdeal.Frame
import proofs.«179178_j74294344286850_2_alg».proof.Proof.Gen.ReferenceIdeal
import proofs.«179178_j74294344286850_2_alg».proof.Proof.Gen.Pre_finite_inputs
import proofs.«179178_j74294344286850_2_alg».proof.Proof.Gen.KernelIdeal.Value
import proofs.«179178_j74294344286850_2_alg».proof.Proof.Gen.ReferenceIdeal.Run
import proofs.«179178_j74294344286850_2_alg».proof.Proof.Gen.ReferenceIdeal.Read
import proofs.«179178_j74294344286850_2_alg».proof.Proof.KernelValue
import proofs.«179178_j74294344286850_2_alg».proof.Proof.RefRow
import Idealize.ShloMosaic.Adequacy
import Idealize.ShloMosaic.Init

noncomputable section

namespace Cert.Proof

open Idealize.ShloMosaic Idealize.SL.Sem Idealize.ShloMosaic.ValueIdx

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- The reference's result, as one array, is `Spec.G` of its arguments: every index is a row and a column. -/
theorem reference_eq
    (a0 : (⟨Cert.ReferenceIdeal.S262144x12, .f32⟩ : BufTy).Contents (Elt Ideal))
    (a1 : (⟨Cert.ReferenceIdeal.S262144x1, .f32⟩ : BufTy).Contents (Elt Ideal))
    (a2 : (⟨Cert.ReferenceIdeal.S64x13, .f32⟩ : BufTy).Contents (Elt Ideal))
    (a3 : (⟨Cert.ReferenceIdeal.S64, .f32⟩ : BufTy).Contents (Elt Ideal))
    (a4 : (⟨Cert.ReferenceIdeal.S64x128, .f32⟩ : BufTy).Contents (Elt Ideal))
    (a5 : (⟨Cert.ReferenceIdeal.S64, .f32⟩ : BufTy).Contents (Elt Ideal))
    (a6 : (⟨Cert.ReferenceIdeal.S32x64, .f32⟩ : BufTy).Contents (Elt Ideal))
    (a7 : (⟨Cert.ReferenceIdeal.S32, .f32⟩ : BufTy).Contents (Elt Ideal))
    (a8 : (⟨Cert.ReferenceIdeal.S400x65, .f32⟩ : BufTy).Contents (Elt Ideal))
    (a9 : (⟨Cert.ReferenceIdeal.S400, .f32⟩ : BufTy).Contents (Elt Ideal))
    (a10 : (⟨Cert.ReferenceIdeal.S300x400, .f32⟩ : BufTy).Contents (Elt Ideal))
    (a11 : (⟨Cert.ReferenceIdeal.S300, .f32⟩ : BufTy).Contents (Elt Ideal))
    (a12 : (⟨Cert.ReferenceIdeal.S32x300, .f32⟩ : BufTy).Contents (Elt Ideal))
    (a13 : (⟨Cert.ReferenceIdeal.S32, .f32⟩ : BufTy).Contents (Elt Ideal)) :
    Cert.ReferenceIdeal.Read.val_main_v54 (F := Ideal) a0 a1 a2 a3 a4 a5 a6 a7 a8 a9 a10 a11 a12 a13
      = Cert.Spec.G a0 a1 a2 a3 a4 a5 a6 a7 a8 a9 a10 a11 a12 a13 := by
  funext i
  obtain ⟨r, q, rfl⟩ : ∃ (r : Fin 262144) (q : Fin 32), i = ix2 r q := ⟨i 0, i 1, eq_ix2 i⟩
  exact Cert.RefRow.reference_apply a0 a1 a2 a3 a4 a5 a6 a7 a8 a9 a10 a11 a12 a13 r q

/-- From memories agreeing on the arguments both programs end with the result array at `Spec.G` of the arguments. -/
theorem algebraic : Cert.algebraic_KernelIdeal_ReferenceIdeal := by
  intro m ρ m' ρ' _ hagree
  refine ⟨fun c => Cert.Spec.G (Cert.KernelWin.A0 m c) (Cert.KernelWin.A1 m c) (Cert.KernelWin.A2 m c) (Cert.KernelWin.A3 m c) (Cert.KernelWin.A4 m c) (Cert.KernelWin.A5 m c) (Cert.KernelWin.A6 m c) (Cert.KernelWin.A7 m c) (Cert.KernelWin.A8 m c) (Cert.KernelWin.A9 m c) (Cert.KernelWin.A10 m c) (Cert.KernelWin.A11 m c) (Cert.KernelWin.A12 m c) (Cert.KernelWin.A13 m c), Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v54_eq, reference_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
